-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .bf16⟩
  | .hbm, ⟨18, _⟩ => ⟨S16384x1024, .bf16⟩
  | .hbm, ⟨19, _⟩ => ⟨S16384x1024, .bf16⟩
  | .hbm, ⟨20, _⟩ => ⟨S16384x1024, .f32⟩
  | .hbm, ⟨21, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S512x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x1024_S16384x1024 : S8x2048x1024.ShapeCasts S16384x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x2048_S512 : S512x2048.Reduces [1] S512
  shapeCasts_S512_S512x1 : S512.ShapeCasts S512x1
  broadcasts_S512x1_S512x2048 : S512x1.Broadcasts S512x2048
  iota_S512x2048_d0_w32 : S512x2048.Iotas .tc 32 [0]
  iota_S512x2048_d1_w32 : S512x2048.Iotas .tc 32 [1]
  shapeCasts_S16384x1024_S8x2048x1024 : S16384x1024.ShapeCasts S8x2048x1024
  dot_S1024x1024_S1024x1024_S1024x1024_1_0_0_1_n_n_wf : DotDims.WF S1024x1024 S1024x1024 S1024x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .bf16 = 32 ∨ (Rect.block (s := S16384x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .bf16 = 32 ∨ (Rect.block (s := S16384x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S16384x1024.size a
  hwx0_9 : ∀ i : grid0.Coords, EltTy.bits .bf16 = 32 ∨ (Rect.block (s := S16384x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .bf16 = 32 ∨ (Rect.block (s := S16384x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x1024.size a
  hwx1_1 : ∀ i : grid1.Coords, EltTy.bits .bf16 = 32 ∨ (Rect.block (s := S16384x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S16384x1024.size a
  hwx1_2 : ∀ i : grid1.Coords, EltTy.bits .bf16 = 32 ∨ (Rect.block (s := S16384x1024) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .f32 = 32 ∨ (Rect.block (s := S16384x1024) S512x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S2048, .i32⟩
  | .hbm, ⟨39, _⟩ => ⟨S2048x1, .i32⟩
  | .hbm, ⟨40, _⟩ => ⟨S2048, .i32⟩
  | .hbm, ⟨41, _⟩ => ⟨S1x2048, .i32⟩
  | .hbm, ⟨42, _⟩ => ⟨S2048x2048, .i32⟩
  | .hbm, ⟨43, _⟩ => ⟨S2048x2048, .i32⟩
  | .hbm, ⟨44, _⟩ => ⟨S2048x2048, .i1⟩
  | .hbm, ⟨45, _⟩ => ⟨S8x2048x2048, .f32⟩
  | .hbm, ⟨46, _⟩ => ⟨S8x2048x2048, .i1⟩
  | .hbm, ⟨47, _⟩ => ⟨S8x2048x2048, .f32⟩
  | .hbm, ⟨48, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S8x2048x2048_1_2 : S2048x2048.BroadcastsInDim S8x2048x2048 (![1, 2] : Fin 2 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  Signed-softmax attention over three dense layers, as one function of the seven argument arrays.

  For a batch b the keys, queries and values are the rows  x[b, s, :] · Wᵀ + bias  (`dense`).  The logit of key row j
  against query row l is the contraction of the two rows over the feature axis, scaled by 1/√1024 = 1/32: written as a
  quotient of the contraction by √1024 (`logitsDiv`), or with every query entry multiplied by 1/32 before the
  contraction (`logitsScaled`).  A row of logits goes through a softmax over the query positions, taken from the row's
  maximum (`soft`); the weight of column l in row j keeps its sign when j ≤ l and is negated otherwise (`signed`); and
  the output row is the signed weights' combination of the value rows (`mix`).
-/
import Idealize.ShloMosaic.PureOps.Ideal
import Idealize.ShloMosaic.Lib.ValueIdx

noncomputable section

namespace Cert.Attn

open Idealize.ShloMosaic Idealize.ShloMosaic.ValueIdx

/-- The input's shape, a weight matrix's and a bias's. -/
abbrev SX : Shape := ⟨3, ![8, 2048, 1024]⟩
abbrev SW : Shape := ⟨2, ![1024, 1024]⟩
abbrev SB : Shape := ⟨1, ![1024]⟩

/-- A dense layer: entry o of row s of batch b of  x · Wᵀ + β. -/
def dense (x : SX.Idx → EReal) (W : SW.Idx → EReal) (β : SB.Idx → EReal) (b : Fin 8) (s : Fin 2048) (o : Fin 1024) : EReal :=
  (∑ i : Fin 1024, x (ix3 b s i) * W (ix2 o i)) + β (ix1 o)

/-- The largest entry of a row of logits, taken from minus infinity. -/
def rowMax (r : Fin 2048 → EReal) : EReal :=
  (Finset.univ : Finset (Fin 2048)).fold max (Ideal.ofBits .f32 0xFF800000#32) r

/-- The softmax weight of column l of a row of logits. -/
def soft (r : Fin 2048 → EReal) (l : Fin 2048) : EReal :=
  Ideal.div (Ideal.exp (r l - rowMax r)) (∑ k : Fin 2048, Ideal.exp (r k - rowMax r))

/-- The weight of column l in row j, negated below the diagonal. -/
def signed (r : Fin 2048 → EReal) (j l : Fin 2048) : EReal :=
  if j ≤ l then soft r l else - soft r l

/-- Entry d of output row j: the signed weights of row j's logits r combining the value rows. -/
def mix (r : Fin 2048 → EReal) (V : Fin 2048 → Fin 1024 → EReal) (j : Fin 2048) (d : Fin 1024) : EReal :=
  ∑ l : Fin 2048, signed r j l * V l d

/-- The logit of key row j against query row l, the contraction divided by √1024. -/
def logitsDiv (K Q : Fin 2048 → Fin 1024 → EReal) (j l : Fin 2048) : EReal :=
  Ideal.div (∑ d : Fin 1024, K j d * Q l d) (Ideal.sqrt (Ideal.ofBits .f32 0x44800000#32))

/-- The same logit with every query entry multiplied by 1/32 (the word 0x3D000000) before the contraction. -/
def logitsScaled (K Q : Fin 2048 → Fin 1024 → EReal) (j l : Fin 2048) : EReal :=
  ∑ d : Fin 1024, K j d * (Q l d * Ideal.ofBits .f32 0x3D000000#32)

/-- Attention with the logits as a quotient, at batch b, row j, feature d. -/
def attnDivAt (x : SX.Idx → EReal) (Wk : SW.Idx → EReal) (bk : SB.Idx → EReal) (Wq : SW.Idx → EReal) (bq : SB.Idx → EReal)
    (Wv : SW.Idx → EReal) (bv : SB.Idx → EReal) (b : Fin 8) (j : Fin 2048) (d : Fin 1024) : EReal :=
  mix (logitsDiv (dense x Wk bk b) (dense x Wq bq b) j) (dense x Wv bv b) j d

/-- Attention with pre-scaled queries, at batch b, row j, feature d. -/
def attnScaledAt (x : SX.Idx → EReal) (Wk : SW.Idx → EReal) (bk : SB.Idx → EReal) (Wq : SW.Idx → EReal) (bq : SB.Idx → EReal)
    (Wv : SW.Idx → EReal) (bv : SB.Idx → EReal) (b : Fin 8) (j : Fin 2048) (d : Fin 1024) : EReal :=
  mix (logitsScaled (dense x Wk bk b) (dense x Wq bq b) j) (dense x Wv bv b) j d

/-- The two as arrays of the input's shape. -/
def attnDiv (x : SX.Idx → EReal) (Wk : SW.Idx → EReal) (bk : SB.Idx → EReal) (Wq : SW.Idx → EReal) (bq : SB.Idx → EReal)
    (Wv : SW.Idx → EReal) (bv : SB.Idx → EReal) : SX.Idx → EReal :=
  fun i => attnDivAt x Wk bk Wq bq Wv bv (i 0) (i 1) (i 2)

def attnScaled (x : SX.Idx → EReal) (Wk : SW.Idx → EReal) (bk : SB.Idx → EReal) (Wq : SW.Idx → EReal) (bq : SB.Idx → EReal)
    (Wv : SW.Idx → EReal) (bv : SB.Idx → EReal) : SX.Idx → EReal :=
  fun i => attnScaledAt x Wk bk Wq bq Wv bv (i 0) (i 1) (i 2)

theorem attnDiv_apply (x : SX.Idx → EReal) (Wk : SW.Idx → EReal) (bk : SB.Idx → EReal) (Wq : SW.Idx → EReal) (bq : SB.Idx → EReal)
    (Wv : SW.Idx → EReal) (bv : SB.Idx → EReal) (b : Fin 8) (j : Fin 2048) (d : Fin 1024) :
    attnDiv x Wk bk Wq bq Wv bv (ix3 b j d) = attnDivAt x Wk bk Wq bq Wv bv b j d := rfl

theorem attnScaled_apply (x : SX.Idx → EReal) (Wk : SW.Idx → EReal) (bk : SB.Idx → EReal) (Wq : SW.Idx → EReal) (bq : SB.Idx → EReal)
    (Wv : SW.Idx → EReal) (bv : SB.Idx → EReal) (b : Fin 8) (j : Fin 2048) (d : Fin 1024) :
    attnScaled x Wk bk Wq bq Wv bv (ix3 b j d) = attnScaledAt x Wk bk Wq bq Wv bv b j d := rfl

end Cert.Attn

end
-- ==== Proof.RefValue.lean ====
/-
  The reference program's result, read index by index, is the signed-softmax attention of the specification.

  The program is a chain of stages.  Three dense layers give the keys, queries and values  x · Wᵀ + β.  The logit of key
  row j against query row l is the contraction of the two rows over the features, divided by √1024.  A row of logits is
  reduced to its maximum (a fold of max from −∞, then one more max against −∞, which changes nothing), the maximum is
  subtracted, the exponentials are summed from zero, and the quotient is the softmax weight.  Two integer ramps compared
  entry by entry say where the column index is at least the row index; there the weight is kept, elsewhere negated.  The
  last contraction combines the value rows with the signed weights.
-/
import proofs.«113429_j25366076850538_2_alg».proof.Proof.Gen.ReferenceIdeal.Read
import proofs.«113429_j25366076850538_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-- The first dense layer at batch b, row s, feature o. -/
theorem dense_v3 (b : Fin 8) (s : Fin 2048) (o : Fin 1024) :
    val_main_v3 (F := Ideal) x0 x1 x2 (ix3 b s o) = dense x0 x1 x2 b s o := by
  rw [val_main_v3_apply, val_main_v0_apply, val_main_v2_apply, val_main_v1_apply]
  unfold dense
  rw [Ideal.addf_def]
  have e1 : ∀ k : Fin 1024, lidx_main_v0 (ix3 b s o) k = ix3 b s k := fun k => funext fun a => by
    match a with | ⟨0, _⟩ => rfl | ⟨1, _⟩ => rfl | ⟨2, _⟩ => rfl
  have e2 : ∀ k : Fin 1024, ridx_main_v0 (ix3 b s o) k = ix2 o k := fun k => funext fun a => by
    match a with | ⟨0, _⟩ => rfl | ⟨1, _⟩ => rfl
  have e3 : idx_main_v1 (idx_main_v2 (ix3 b s o)) = ix1 o := funext fun a => by
    match a with | ⟨0, _⟩ => rfl
  simp only [e1, e2, e3]

/-- The second and third dense layers are the first one's operations applied to other weights. -/
theorem v7_eq_v3 : val_main_v7 (F := Ideal) x0 x3 x4 = val_main_v3 (F := Ideal) x0 x3 x4 := rfl

theorem v11_eq_v3 : val_main_v11 (F := Ideal) x0 x5 x6 = val_main_v3 (F := Ideal) x0 x5 x6 := rfl

/-- The row of logits of key row j of batch b against every query row. -/
abbrev row (b : Fin 8) (j : Fin 2048) : Fin 2048 → EReal :=
  logitsDiv (dense x0 x1 x2 b) (dense x0 x3 x4 b) j

/-- The logit of key row j against query row l: the contraction over the features divided by √1024. -/
theorem logits_v15 (b : Fin 8) (j l : Fin 2048) :
    val_main_v15 (F := Ideal) x0 x1 x2 x3 x4 (ix3 b j l) = row x0 x1 x2 x3 x4 b j l := by
  rw [val_main_v15_apply, val_main_v12_apply, val_main_v14_apply, val_main_v13_apply, val_main_cst_apply, v7_eq_v3]
  unfold row logitsDiv
  rw [Ideal.hostDivf_def, Ideal.hostUnary_sqrt_def, Ideal.ofBits_def]
  have e1 : ∀ k : Fin 1024, lidx_main_v12 (ix3 b j l) k = ix3 b j k := fun k => funext fun a => by
    match a with | ⟨0, _⟩ => rfl | ⟨1, _⟩ => rfl | ⟨2, _⟩ => rfl
  have e2 : ∀ k : Fin 1024, ridx_main_v12 (ix3 b j l) k = ix3 b l k := fun k => funext fun a => by
    match a with | ⟨0, _⟩ => rfl | ⟨1, _⟩ => rfl | ⟨2, _⟩ => rfl
  simp only [e1, e2, dense_v3]

/-- A row index with the column k put back on the reduced axis is (b, j, k). -/
theorem lift_row (h : S8x2048x2048.Reduces [2] S8x2048) (b : Fin 8) (j : Fin 2048) (k : Fin (S8x2048x2048.size 2)) :
    h.lift (ix2 b j) k = ix3 b j (⟨k.val, k.isLt⟩ : Fin 2048) := by
  funext c; apply Fin.ext
  fin_cases c <;> rfl

/-- A maximum against minus infinity changes nothing. -/
theorem negInf_max (y : Ideal .f32) : max (Ideal.ofBits .f32 0xFF800000#32) y = y := by
  simp [Ideal.ofBits, Ideal.ieee]

/-- The row maximum: the fold of max over the columns from minus infinity, and one more maximum against minus infinity. -/
theorem rowMax_v18 (b : Fin 8) (j : Fin 2048) :
    val_main_v18 (F := Ideal) x0 x1 x2 x3 x4 (ix2 b j) = rowMax (row x0 x1 x2 x3 x4 b j) := by
  have h : S8x2048x2048.Reduces [2] S8x2048 := by decide
  rw [val_main_v18_apply, val_main_v17_apply, val_main_cst_1_apply, Ideal.maximumf_def, Ideal.ofBits_def, negInf_max]
  unfold val_main_v16
  rw [Host.reduce_eq_fold_single FloatOps.maximumf _ _ reducesTo_S8x2048x2048_S8x2048_d2 h h_S_, val_main_cst_0_apply,
    Ideal.ofBits_def]
  unfold rowMax
  have hf : (val_main_v15 (F := Ideal) x0 x1 x2 x3 x4 ∘ h.lift (ix2 b j)) = row x0 x1 x2 x3 x4 b j :=
    funext fun k => by
      show val_main_v15 (F := Ideal) x0 x1 x2 x3 x4 (h.lift (ix2 b j) k) = _
      rw [lift_row h b j k, logits_v15]
      rfl
  exact congrArg (fun f => Finset.fold max (Ideal.ofBits .f32 0xFF800000#32) f (Finset.univ : Finset (Fin 2048))) hf

/-- The exponential of a logit less its row's maximum. -/
theorem exp_v22 (b : Fin 8) (j l : Fin 2048) :
    val_main_v22 (F := Ideal) x0 x1 x2 x3 x4 (ix3 b j l)
      = Ideal.exp (row x0 x1 x2 x3 x4 b j l - rowMax (row x0 x1 x2 x3 x4 b j)) := by
  have e : idx_main_v19 (idx_main_v20 (ix3 b j l)) = ix2 b j := funext fun a => by
    match a with | ⟨0, _⟩ => rfl | ⟨1, _⟩ => rfl
  rw [val_main_v22_apply, val_main_v21_apply, val_main_v20_apply, val_main_v19_apply, Ideal.hostUnary_exp_def, Ideal.subf_def,
    logits_v15, e, rowMax_v18]

/-- The sum of a row's exponentials, taken from zero. -/
theorem sum_v23 (b : Fin 8) (j : Fin 2048) :
    val_main_v23 (F := Ideal) x0 x1 x2 x3 x4 (ix2 b j)
      = ∑ k : Fin 2048, Ideal.exp (row x0 x1 x2 x3 x4 b j k - rowMax (row x0 x1 x2 x3 x4 b j)) := by
  rw [val_main_v23_apply, val_main_cst_2_apply, Ideal.ofBits_def, Ideal.ofBits_zero_f32, zero_add]
  refine Finset.sum_congr rfl fun k _ => ?_
  have e : idx_main_v23 (ix2 b j) k = ix3 b j k := funext fun a => by
    match a with | ⟨0, _⟩ => rfl | ⟨1, _⟩ => rfl | ⟨2, _⟩ => rfl
  rw [e, exp_v22]

/-- The softmax weight of column l in row j. -/
theorem soft_v26 (b : Fin 8) (j l : Fin 2048) :
    val_main_v26 (F := Ideal) x0 x1 x2 x3 x4 (ix3 b j l) = soft (row x0 x1 x2 x3 x4 b j) l := by
  have e : idx_main_v24 (idx_main_v25 (ix3 b j l)) = ix2 b j := funext fun a => by
    match a with | ⟨0, _⟩ => rfl | ⟨1, _⟩ => rfl
  rw [val_main_v26_apply, val_main_v25_apply, val_main_v24_apply, Ideal.hostDivf_def, exp_v22, e, sum_v23]
  rfl

/-- Two coordinates below 2048, as 32-bit words, compare as signed integers the way they compare as numbers. -/
theorem word_sle (j l : Fin 2048) : (BitVec.ofNat 32 j.val).sle (BitVec.ofNat 32 l.val) = decide (j ≤ l) := by
  have hj := j.isLt
  have hl := l.isLt
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  refine decide_eq_decide.2 ?_
  rw [Fin.le_def]
  omega

/-- The mask at row j, column l: the column ramp compared with the row ramp. -/
theorem mask_v33 (j l : Fin 2048) :
    val_main_v33 (F := Ideal) (ix2 j l) = BitVec.ofBool (decide (j ≤ l)) := by
  rw [val_main_v33_apply, val_main_v31_apply, val_main_v30_apply, val_main_v29_apply, val_main_v32_apply, val_main_v28_apply,
    val_main_v27_apply, ← word_sle]
  rfl

/-- The signed weight: kept where the row index is at most the column index, negated elsewhere. -/
theorem signed_v35 (b : Fin 8) (j l : Fin 2048) :
    val_main_v35 (F := Ideal) x0 x1 x2 x3 x4 (ix3 b j l) = signed (row x0 x1 x2 x3 x4 b j) j l := by
  have e : idx_main_call0_v0 (ix3 b j l) = ix2 j l := funext fun a => by
    match a with | ⟨0, _⟩ => rfl | ⟨1, _⟩ => rfl
  rw [val_main_v35_apply, val_main_call0_v0_apply, val_main_v34_apply, Ideal.hostNegf_def, Ideal.negf_def, soft_v26, e, mask_v33]
  unfold signed
  by_cases h : j ≤ l
  · rw [if_pos h, decide_eq_true h]; exact select_one _ _
  · rw [if_neg h, decide_eq_false h]; exact select_zero _ _

/-- The result at batch b, row j, feature d: the signed weights of row j combining the value rows. -/
theorem mix_v36 (b : Fin 8) (j : Fin 2048) (d : Fin 1024) :
    val_main_v36 (F := Ideal) x0 x1 x2 x3 x4 x5 x6 (ix3 b j d) = attnDivAt x0 x1 x2 x3 x4 x5 x6 b j d := by
  rw [val_main_v36_apply, v11_eq_v3]
  unfold attnDivAt mix
  refine Finset.sum_congr rfl fun k _ => ?_
  have e1 : lidx_main_v36 (ix3 b j d) k = ix3 b j k := funext fun a => by
    match a with | ⟨0, _⟩ => rfl | ⟨1, _⟩ => rfl | ⟨2, _⟩ => rfl
  have e2 : ridx_main_v36 (ix3 b j d) k = ix3 b k d := funext fun a => by
    match a with | ⟨0, _⟩ => rfl | ⟨1, _⟩ => rfl | ⟨2, _⟩ => rfl
  rw [e1, e2, signed_v35, dense_v3]

/-- The reference's result is the specification's attention, as arrays. -/
theorem ref_eq :
    Cert.ReferenceIdeal.Read.val_main_v36 (F := Ideal) x0 x1 x2 x3 x4 x5 x6 = Cert.Attn.attnDiv x0 x1 x2 x3 x4 x5 x6 := by
  funext i
  obtain ⟨b, j, d, rfl⟩ : ∃ (b : Fin 8) (j : Fin 2048) (d : Fin 1024), i = ix3 b j d := ⟨i 0, i 1, i 2, eq_ix3 i⟩
  rw [mix_v36, attnDiv_apply]

end Cert.ReferenceIdeal.RefValue

end
-- ==== Proof.KernelRun.lean ====
/-
  The run of the kernel program, with the result array named.

  From any memory with zero counters every weakly fair execution of the program on the TensorCores terminates, nothing
  faulting, and in every final state each unscoped buffer holds what the fold through the program's segments leaves
  there.  Read at the result array, that is the contents after the last host operation — the reshape of what the
  second region leaves —; read at the seven argument arrays, no host operation and no region writes one, so the fold
  walks back to the launch memory.
-/
import proofs.«113429_j25366076850538_2_alg».proof.Proof.FrameKernelIdeal

set_option maxRecDepth 16384

noncomputable section

namespace Cert.KernelIdeal.KernelRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- The run, with the result array named: after the last host operation it holds what the fold through the two
    regions leaves, and the seven argument arrays are as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KernelRun

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«113429_j25366076850538_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.Body0.lean ====
/-
  The projection tile's arithmetic, read at an entry.

  A tile holds 1024 rows xb of the input, a 1024 × 1024 weight matrix w laid out with the input features down its rows
  and the output features along its columns, and a bias row β.  Its stored value at (p, q) is the contraction of row p
  of xb with column q of w, plus entry q of the bias row; a change of float format on the way in or out changes nothing
  at the exact instance.  The second of the three projections is further multiplied, entry by entry, by the constant
  1/32 (the word 0x3D000000), which is kept as that word.
-/
import proofs.«113429_j25366076850538_2_alg».proof.Proof.Gen.KernelIdeal.Skeleton
import proofs.«113429_j25366076850538_2_alg».proof.Proof.LibMatmul
import proofs.«113429_j25366076850538_2_alg».proof.Proof.LibRank2
import Idealize.ShloMosaic.Lib.Pipeline.Value
import Idealize.ShloMosaic.Lib.ValueIdx
import Idealize.ShloMosaic.PureOps.Ideal.Laws

noncomputable section

namespace Cert.KernelIdeal.Body0

open Idealize.ShloMosaic Idealize.ShloMosaic.ValueIdx Cert.KernelIdeal Cert.KernelIdeal.Gen

/-- The projection before its last change of format: the rows times the weights, plus the bias row down every row. -/
def projB (xb : Vec Ideal S1024x1024 .f32) (w : Vec Ideal S1024x1024 .bf16) (β : Vec Ideal S1x1024 .f32) :
    FVec Ideal S1024x1024 .f32 :=
  addf
    (matmul dot_S1024x1024_S1024x1024_S1024x1024_1_0_0_1_n_n none
      (truncf .bf16 (shapeCast S1024x1024 xb Facts₀.shapeCasts_S1024x1024_S1024x1024 : FVec Ideal S1024x1024 .f32)
        Facts₀.bitsLt_bf16_f32)
      (shapeCast S1024x1024 w Facts₀.shapeCasts_S1024x1024_S1024x1024 : FVec Ideal S1024x1024 .bf16)
      (constant S1024x1024 .f32 0x00000000#32))
    (broadcastTo S1024x1024 (shapeCast S1x1024 β Facts₀.shapeCasts_S1x1024_S1x1024 : FVec Ideal S1x1024 .f32)
      Facts₀.broadcasts_S1x1024_S1024x1024)

/-- Entry (p, q) of the projection: row p of xb against column q of w, plus the bias of output feature q. -/
theorem projB_apply (xb : Vec Ideal S1024x1024 .f32) (w : Vec Ideal S1024x1024 .bf16) (β : Vec Ideal S1x1024 .f32)
    (p q : Fin 1024) :
    projB xb w β (ix2 p q) = (∑ k : Fin 1024, xb (ix2 p k) * w (ix2 k q)) + β (ix2 (0 : Fin 1) q) := by
  unfold projB
  rw [addf_apply, shapeCast_self, shapeCast_self,
    Cert.Rank2.rowBias_vec_apply β Facts₀.shapeCasts_S1x1024_S1x1024 Facts₀.broadcasts_S1x1024_S1024x1024 p q]
  refine congrArg (· + β (ix2 (0 : Fin 1) q)) ?_
  refine (Cert.MatmulAt.matmul_zero_plain_apply (φ₁ := .bf16) (φ₂ := .bf16)
    Facts₀.dot_S1024x1024_S1024x1024_S1024x1024_1_0_0_1_n_n_wf none _ w p q).trans ?_
  refine Finset.sum_congr rfl fun k _ => ?_
  rw [truncf_apply]

/-- The first stored tile is the projection, its format changed. -/
theorem pay2_eq (xb : Vec Ideal S1024x1024 .f32) (w : Vec Ideal S1024x1024 .bf16) (β : Vec Ideal S1x1024 .f32) :
    k0_pay2 xb w β = truncf .bf16 (projB xb w β) Facts₀.bitsLt_bf16_f32 := rfl

theorem pay2_apply (xb : Vec Ideal S1024x1024 .f32) (w : Vec Ideal S1024x1024 .bf16) (β : Vec Ideal S1x1024 .f32)
    (p q : Fin 1024) :
    k0_pay2 xb w β (ix2 p q) = (∑ k : Fin 1024, xb (ix2 p k) * w (ix2 k q)) + β (ix2 (0 : Fin 1) q) := by
  rw [pay2_eq, truncf_apply, projB_apply]

/-- The second stored tile is the projection times the constant 1/32 in every entry, its format changed. -/
theorem pay3_eq (xb : Vec Ideal S1024x1024 .f32) (w : Vec Ideal S1024x1024 .bf16) (β : Vec Ideal S1x1024 .f32) :
    k0_pay3 xb w β
      = truncf .bf16 (mulf (projB xb w β) (broadcast S1024x1024 (Scalar.ofBits (F := Ideal) .f32 0x3D000000#32)))
          Facts₀.bitsLt_bf16_f32 := rfl

theorem pay3_apply (xb : Vec Ideal S1024x1024 .f32) (w : Vec Ideal S1024x1024 .bf16) (β : Vec Ideal S1x1024 .f32)
    (p q : Fin 1024) :
    k0_pay3 xb w β (ix2 p q)
      = ((∑ k : Fin 1024, xb (ix2 p k) * w (ix2 k q)) + β (ix2 (0 : Fin 1) q)) * Ideal.ofBits .f32 0x3D000000#32 := by
  rw [pay3_eq, truncf_apply, mulf_apply, broadcast_apply, projB_apply]
  rfl

/-- The third stored tile is the projection, its format changed. -/
theorem pay4_eq (xb : Vec Ideal S1024x1024 .f32) (w : Vec Ideal S1024x1024 .bf16) (β : Vec Ideal S1x1024 .f32) :
    k0_pay4 xb w β = truncf .bf16 (projB xb w β) Facts₀.bitsLt_bf16_f32 := rfl

theorem pay4_apply (xb : Vec Ideal S1024x1024 .f32) (w : Vec Ideal S1024x1024 .bf16) (β : Vec Ideal S1x1024 .f32)
    (p q : Fin 1024) :
    k0_pay4 xb w β (ix2 p q) = (∑ k : Fin 1024, xb (ix2 p k) * w (ix2 k q)) + β (ix2 (0 : Fin 1) q) := by
  rw [pay4_eq, truncf_apply, projB_apply]

end Cert.KernelIdeal.Body0

end
-- ==== Proof.Rows.lean ====
/-
  Rows of the flattened layout: the kernel works on the input as a 16384 x 1024 matrix, row 2048·b + s of which is row s
  of batch b of the 8 x 2048 x 1024 array.
-/
import Mathlib.Data.Fin.Basic
import Mathlib.Tactic

namespace Cert.Attn

/-- Row s of batch b, in the flattened layout. -/
def row (b : Fin 8) (s : Fin 2048) : Fin 16384 := ⟨b.val * 2048 + s.val, by have := b.isLt; have := s.isLt; omega⟩

theorem row_val (b : Fin 8) (s : Fin 2048) : (row b s).val = b.val * 2048 + s.val := rfl

/-- The batch and the row inside the batch of a flattened row. -/
def batchOf (p : Fin 16384) : Fin 8 := ⟨p.val / 2048, by have := p.isLt; omega⟩
def rowOf (p : Fin 16384) : Fin 2048 := ⟨p.val % 2048, by omega⟩

theorem row_batchOf_rowOf (p : Fin 16384) : row (batchOf p) (rowOf p) = p := by
  apply Fin.ext
  show p.val / 2048 * 2048 + p.val % 2048 = p.val
  omega

theorem batchOf_row (b : Fin 8) (s : Fin 2048) : batchOf (row b s) = b := by
  apply Fin.ext
  show (b.val * 2048 + s.val) / 2048 = b.val
  have := s.isLt; omega

theorem rowOf_row (b : Fin 8) (s : Fin 2048) : rowOf (row b s) = s := by
  apply Fin.ext
  show (b.val * 2048 + s.val) % 2048 = s.val
  have := s.isLt; omega

end Cert.Attn
-- ==== Proof.Flat.lean ====
/-
  The two kernel regions as functions of the arrays they read, in the flattened 16384 x 1024 layout (row 2048·b + s is
  row s of batch b).

  `projected xf w β` is the dense layer on the flattened input: entry (p, o) is  ∑ k, xf (p, k) · w (k, o) + β (0, o),
  with the weights already transposed to [in, out] and the bias a 1 x 1024 row; `projectedScaled` multiplies every entry
  by the word 0x3D000000 (1/32).  `attended Kf Qf Vf` is the attention region's output: at row p, of batch b = p / 2048
  and position j = p % 2048, and column d, the signed-softmax mix of row p's logits against the batch's query rows,
  applied to the batch's value rows.
-/
import proofs.«113429_j25366076850538_2_alg».proof.Proof.Spec
import proofs.«113429_j25366076850538_2_alg».proof.Proof.Rows

noncomputable section

namespace Cert.Attn

open Idealize.ShloMosaic Idealize.ShloMosaic.ValueIdx

/-- The flattened layout, and a bias as a row. -/
abbrev SF : Shape := ⟨2, ![16384, 1024]⟩
abbrev SR : Shape := ⟨2, ![1, 1024]⟩

def projected (xf : SF.Idx → EReal) (w : SW.Idx → EReal) (β : SR.Idx → EReal) : SF.Idx → EReal :=
  fun i => (∑ k : Fin 1024, xf (ix2 (i 0) k) * w (ix2 k (i 1))) + β (ix2 (0 : Fin 1) (i 1))

def projectedScaled (xf : SF.Idx → EReal) (w : SW.Idx → EReal) (β : SR.Idx → EReal) : SF.Idx → EReal :=
  fun i => projected xf w β i * Ideal.ofBits .f32 0x3D000000#32

def attended (Kf Qf Vf : SF.Idx → EReal) : SF.Idx → EReal := fun i =>
  mix (fun l => ∑ e : Fin 1024, Kf (ix2 (i 0) e) * Qf (ix2 (row (batchOf (i 0)) l) e))
    (fun l d => Vf (ix2 (row (batchOf (i 0)) l) d)) (rowOf (i 0)) (i 1)

theorem projected_apply (xf : SF.Idx → EReal) (w : SW.Idx → EReal) (β : SR.Idx → EReal) (p : Fin 16384) (o : Fin 1024) :
    projected xf w β (ix2 p o) = (∑ k : Fin 1024, xf (ix2 p k) * w (ix2 k o)) + β (ix2 (0 : Fin 1) o) := rfl

theorem projectedScaled_apply (xf : SF.Idx → EReal) (w : SW.Idx → EReal) (β : SR.Idx → EReal) (p : Fin 16384) (o : Fin 1024) :
    projectedScaled xf w β (ix2 p o)
      = ((∑ k : Fin 1024, xf (ix2 p k) * w (ix2 k o)) + β (ix2 (0 : Fin 1) o)) * Ideal.ofBits .f32 0x3D000000#32 := rfl

theorem attended_apply (Kf Qf Vf : SF.Idx → EReal) (p : Fin 16384) (d : Fin 1024) :
    attended Kf Qf Vf (ix2 p d)
      = mix (fun l => ∑ e : Fin 1024, Kf (ix2 p e) * Qf (ix2 (row (batchOf p) l) e))
          (fun l d' => Vf (ix2 (row (batchOf p) l) d')) (rowOf p) d := rfl

end Cert.Attn

end
-- ==== Proof.Region0.lean ====
/-
  The projection region: from its tiles to its three output arrays.

  The region runs over 16 grid points; point t works on rows 1024·t … 1024·t + 1023 of the flattened 16384 x 1024
  input, with each of the three 1024 x 1024 weight matrices and each of the three 1 x 1024 bias rows whole, and writes
  back rows 1024·t … 1024·t + 1023 of each of the three outputs.  The 16 blocks tile each output, so after the region
  output array number n is, at row p and column q, the contraction of input row p with column q of weight matrix n plus
  entry q of bias row n (for the second output, times the constant 1/32): one function `projected` or
  `projectedScaled` of the three arrays that output depends on, whatever they hold.
-/
import proofs.«113429_j25366076850538_2_alg».proof.Proof.FrameKernelIdeal
import proofs.«113429_j25366076850538_2_alg».proof.Proof.Body0
import proofs.«113429_j25366076850538_2_alg».proof.Proof.Flat
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.KernelIdeal.GenP Cert.Attn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid.  The input's block advances with the point. -/
theorem idx_x : ∀ t : Fin cfg0.N, win0_0.index t (0 : Fin 2) = t.val ∧ win0_0.index t (1 : Fin 2) = 0 :=
  (by decide +kernel : ∀ t : Fin grid0.N, _)

/-- The three weight matrices are one block each, the same at every point. -/
theorem idx_w : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The three bias rows are one block each, the same at every point. -/
theorem idx_b : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The three outputs' blocks advance with the point. -/
theorem idx_o : ∀ t : Fin cfg0.N,
    win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The input block at point t is rows 1024·t … of the input. -/
theorem rows_apply (c : Dev nD) (t : Fin cfg0.N) (x : S1024x1024.Idx) (k : S16384x1024.Idx)
    (hk0 : (k 0).val = 1024 * t.val + (x 0).val) (hk1 : (k 1).val = (x 1).val) :
    (iblk0 V c 0 t : Vec Ideal S1024x1024 .f32) x = (V c main_v0 : S16384x1024.Idx → EReal) k := by
  obtain ⟨e0, e1⟩ := idx_x t
  unfold iblk0
  rw [View.read_apply]
  show V c main_v0 _ = V c main_v0 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The first weight block at any point is the whole first weight matrix. -/
theorem weights1_apply (c : Dev nD) (t : Fin cfg0.N) (x : S1024x1024.Idx) (k : S1024x1024.Idx)
    (hk0 : (k 0).val = (x 0).val) (hk1 : (k 1).val = (x 1).val) :
    (iblk0 V c 1 t : Vec Ideal S1024x1024 .bf16) x = (V c main_v2 : S1024x1024.Idx → EReal) k := by
  obtain ⟨e0, e1, -, -, -, -⟩ := idx_w t
  unfold iblk0
  rw [View.read_apply]
  show V c main_v2 _ = V c main_v2 _
  congr 1
  funext a
  apply Fin.ext
  match a with
  | ⟨0, _⟩ => show win0_1.index t 0 * 1024 + 1 * (x 0).val = (k 0).val; rw [e0, hk0]; omega
  | ⟨1, _⟩ => show win0_1.index t 1 * 1024 + 1 * (x 1).val = (k 1).val; rw [e1, hk1]; omega

/-- The first bias block at any point is the whole first bias row. -/
theorem bias4_apply (c : Dev nD) (t : Fin cfg0.N) (x : S1x1024.Idx) (k : S1x1024.Idx)
    (hk0 : (k 0).val = (x 0).val) (hk1 : (k 1).val = (x 1).val) :
    (iblk0 V c 4 t : Vec Ideal S1x1024 .f32) x = (V c main_v7 : S1x1024.Idx → EReal) k := by
  obtain ⟨e0, e1, -, -, -, -⟩ := idx_b t
  unfold iblk0
  rw [View.read_apply]
  show V c main_v7 _ = V c main_v7 _
  congr 1
  funext a
  apply Fin.ext
  match a with
  | ⟨0, _⟩ => show win0_4.index t 0 * 1 + 1 * (x 0).val = (k 0).val; rw [e0, hk0]; omega
  | ⟨1, _⟩ => show win0_4.index t 1 * 1024 + 1 * (x 1).val = (k 1).val; rw [e1, hk1]; omega

/-- The second weight block at any point is the whole second weight matrix. -/
theorem weights2_apply (c : Dev nD) (t : Fin cfg0.N) (x : S1024x1024.Idx) (k : S1024x1024.Idx)
    (hk0 : (k 0).val = (x 0).val) (hk1 : (k 1).val = (x 1).val) :
    (iblk0 V c 2 t : Vec Ideal S1024x1024 .bf16) x = (V c main_v4 : S1024x1024.Idx → EReal) k := by
  obtain ⟨-, -, e0, e1, -, -⟩ := idx_w t
  unfold iblk0
  rw [View.read_apply]
  show V c main_v4 _ = V c main_v4 _
  congr 1
  funext a
  apply Fin.ext
  match a with
  | ⟨0, _⟩ => show win0_2.index t 0 * 1024 + 1 * (x 0).val = (k 0).val; rw [e0, hk0]; omega
  | ⟨1, _⟩ => show win0_2.index t 1 * 1024 + 1 * (x 1).val = (k 1).val; rw [e1, hk1]; omega

/-- The second bias block at any point is the whole second bias row. -/
theorem bias5_apply (c : Dev nD) (t : Fin cfg0.N) (x : S1x1024.Idx) (k : S1x1024.Idx)
    (hk0 : (k 0).val = (x 0).val) (hk1 : (k 1).val = (x 1).val) :
    (iblk0 V c 5 t : Vec Ideal S1x1024 .f32) x = (V c main_v8 : S1x1024.Idx → EReal) k := by
  obtain ⟨-, -, e0, e1, -, -⟩ := idx_b t
  unfold iblk0
  rw [View.read_apply]
  show V c main_v8 _ = V c main_v8 _
  congr 1
  funext a
  apply Fin.ext
  match a with
  | ⟨0, _⟩ => show win0_5.index t 0 * 1 + 1 * (x 0).val = (k 0).val; rw [e0, hk0]; omega
  | ⟨1, _⟩ => show win0_5.index t 1 * 1024 + 1 * (x 1).val = (k 1).val; rw [e1, hk1]; omega

/-- The third weight block at any point is the whole third weight matrix. -/
theorem weights3_apply (c : Dev nD) (t : Fin cfg0.N) (x : S1024x1024.Idx) (k : S1024x1024.Idx)
    (hk0 : (k 0).val = (x 0).val) (hk1 : (k 1).val = (x 1).val) :
    (iblk0 V c 3 t : Vec Ideal S1024x1024 .bf16) x = (V c main_v6 : S1024x1024.Idx → EReal) k := by
  obtain ⟨-, -, -, -, e0, e1⟩ := idx_w t
  unfold iblk0
  rw [View.read_apply]
  show V c main_v6 _ = V c main_v6 _
  congr 1
  funext a
  apply Fin.ext
  match a with
  | ⟨0, _⟩ => show win0_3.index t 0 * 1024 + 1 * (x 0).val = (k 0).val; rw [e0, hk0]; omega
  | ⟨1, _⟩ => show win0_3.index t 1 * 1024 + 1 * (x 1).val = (k 1).val; rw [e1, hk1]; omega

/-- The third bias block at any point is the whole third bias row. -/
theorem bias6_apply (c : Dev nD) (t : Fin cfg0.N) (x : S1x1024.Idx) (k : S1x1024.Idx)
    (hk0 : (k 0).val = (x 0).val) (hk1 : (k 1).val = (x 1).val) :
    (iblk0 V c 6 t : Vec Ideal S1x1024 .f32) x = (V c main_v9 : S1x1024.Idx → EReal) k := by
  obtain ⟨-, -, -, -, e0, e1⟩ := idx_b t
  unfold iblk0
  rw [View.read_apply]
  show V c main_v9 _ = V c main_v9 _
  congr 1
  funext a
  apply Fin.ext
  match a with
  | ⟨0, _⟩ => show win0_6.index t 0 * 1 + 1 * (x 0).val = (k 0).val; rw [e0, hk0]; omega
  | ⟨1, _⟩ => show win0_6.index t 1 * 1024 + 1 * (x 1).val = (k 1).val; rw [e1, hk1]; omega

/-! ### Output 1: the keys' projection -/

/-- The tile's stored value at (r, q) is `projected` at row p = 1024·t + r of the array, column q. -/
theorem block_entry7 (c : Dev nD) (t : Fin cfg0.N) (r q : Fin 1024) (p : Fin 16384) (hp : p.val = 1024 * t.val + r.val) :
    k0_pay2 (iblk0 V c 0 t) (iblk0 V c 1 t) (iblk0 V c 4 t) (ix2 r q) = projected (V c main_v0) (V c main_v2) (V c main_v7) (ix2 p q) := by
  refine (Cert.KernelIdeal.Body0.pay2_apply (iblk0 V c 0 t) (iblk0 V c 1 t) (iblk0 V c 4 t) r q).trans ?_
  rw [projected_apply]
  refine congrArg₂ (· + ·) (Finset.sum_congr rfl fun k _ => ?_) ?_
  · rw [rows_apply V c t (ix2 r k) (ix2 p k) hp rfl, weights1_apply V c t (ix2 k q) (ix2 k q) rfl rfl]
  · exact bias4_apply V c t (ix2 (0 : Fin 1) q) (ix2 (0 : Fin 1) q) rfl rfl

/-- Where an entry of the output block sits in the output array. -/
theorem out_emb7 (t : Fin cfg0.N) (y : ((cfg0.win 7).xblock (grid0.coords t)).Idx) (k : S16384x1024.Idx)
    (hk0 : (k 0).val = 1024 * t.val + (y 0).val) (hk1 : (k 1).val = (y 1).val) :
    ((cfg0.win 7).blk t).view.emb y = k := by
  obtain ⟨e0, e1, -, -, -, -⟩ := idx_o t
  funext a
  apply Fin.ext
  match a with
  | ⟨0, _⟩ => show win0_7.index t 0 * 1024 + 1 * (y 0).val = (k 0).val; rw [e0, hk0]; omega
  | ⟨1, _⟩ => show win0_7.index t 1 * 1024 + 1 * (y 1).val = (k 1).val; rw [e1, hk1]; omega

/-- WHAT POINT t WRITES BACK is block t of `projected` of the three arrays as the region finds them. -/
theorem flushed_eq7 (c : Dev nD) (t : Fin cfg0.N) :
    (dat0 V c).flushed 7 t = ((cfg0.win 7).blk t).view.read (Elt Ideal) (projected (V c main_v0) (V c main_v2) (V c main_v7)) := by
  show (cfg0.win 7).cut (grid0.coords t) ((dat0 V c).after 7 t) = _
  rw [after0_7]
  unfold out0_7
  rw [View.canon_unit_zero hz]
  simp only [View.ld_unit_zero (S := S1024x1024) hz, View.ld_unit_zero (S := S1x1024) hz]
  funext y
  have ht : t.val < 16 := t.isLt
  have hy0 : (y 0).val < 1024 := (y 0).isLt
  have hy1 : (y 1).val < 1024 := (y 1).isLt
  have hy : (cfg0.win 7).xinj (grid0.coords t) y = ix2 (⟨(y 0).val, hy0⟩ : Fin 1024) (⟨(y 1).val, hy1⟩ : Fin 1024) :=
    funext fun a => Fin.ext (by
      match a with
      | ⟨0, _⟩ => rfl
      | ⟨1, _⟩ => rfl)
  have hemb := out_emb7 t y (ix2 (⟨1024 * t.val + (y 0).val, by omega⟩ : Fin 16384)
    (⟨(y 1).val, hy1⟩ : Fin 1024)) rfl rfl
  show k0_pay2 (iblk0 V c 0 t) (iblk0 V c 1 t) (iblk0 V c 4 t) ((cfg0.win 7).xinj (grid0.coords t) y)
    = projected (V c main_v0) (V c main_v2) (V c main_v7) (((cfg0.win 7).blk t).view.emb y)
  rw [hy, hemb]
  exact block_entry7 V c t _ _ _ rfl

/-- An index of the output array is in point t's block iff its row is among the block's 1024 rows. -/
theorem mem_blk7 (t : Fin cfg0.N) (i : S16384x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v10_0).slice (win0_7.rect t)).set ↔ _
  rw [View.set_slice_whole, Rect.mem_set_unit]
  exact Iff.rfl

/-- THE OUTPUT ARRAY after the region: the 16 blocks tile it (row p lies in block p / 1024), so it is `projected`. -/
theorem final7 (c : Dev nD) : (dat0 V c).arrAt 7 cfg0.N = projected (V c main_v0) (V c main_v2) (V c main_v7) :=
  (dat0 V c).arrAt_eq_of_cover 7 _ (fun t _ => flushed_eq7 V c t) fun i => by
    have h0 : (i 0).val < 16384 := (i 0).isLt
    have h1 : (i 1).val < 1024 := (i 1).isLt
    have hlt : (i 0).val / 1024 < cfg0.N := by show (i 0).val / 1024 < 16; omega
    obtain ⟨e0, e1, -, -, -, -⟩ := idx_o ⟨(i 0).val / 1024, hlt⟩
    refine ⟨⟨(i 0).val / 1024, hlt⟩, flush0_7 _, ?_⟩
    rw [mem_blk7]
    intro a
    match a with
    | ⟨0, _⟩ =>
      show win0_7.index ⟨(i 0).val / 1024, hlt⟩ 0 * 1024 ≤ (i 0).val
        ∧ (i 0).val < win0_7.index ⟨(i 0).val / 1024, hlt⟩ 0 * 1024 + 1024
      rw [e0]; show (i 0).val / 1024 * 1024 ≤ (i 0).val ∧ (i 0).val < (i 0).val / 1024 * 1024 + 1024; omega
    | ⟨1, _⟩ =>
      show win0_7.index ⟨(i 0).val / 1024, hlt⟩ 1 * 1024 ≤ (i 1).val
        ∧ (i 1).val < win0_7.index ⟨(i 0).val / 1024, hlt⟩ 1 * 1024 + 1024
      rw [e1]; omega

/-! ### Output 2: the queries' projection, scaled -/

/-- The tile's stored value at (r, q) is `projectedScaled` at row p = 1024·t + r of the array, column q. -/
theorem block_entry8 (c : Dev nD) (t : Fin cfg0.N) (r q : Fin 1024) (p : Fin 16384) (hp : p.val = 1024 * t.val + r.val) :
    k0_pay3 (iblk0 V c 0 t) (iblk0 V c 2 t) (iblk0 V c 5 t) (ix2 r q) = projectedScaled (V c main_v0) (V c main_v4) (V c main_v8) (ix2 p q) := by
  refine (Cert.KernelIdeal.Body0.pay3_apply (iblk0 V c 0 t) (iblk0 V c 2 t) (iblk0 V c 5 t) r q).trans ?_
  rw [projectedScaled_apply]
  refine congrArg (· * Ideal.ofBits .f32 0x3D000000#32) ?_
  refine congrArg₂ (· + ·) (Finset.sum_congr rfl fun k _ => ?_) ?_
  · rw [rows_apply V c t (ix2 r k) (ix2 p k) hp rfl, weights2_apply V c t (ix2 k q) (ix2 k q) rfl rfl]
  · exact bias5_apply V c t (ix2 (0 : Fin 1) q) (ix2 (0 : Fin 1) q) rfl rfl

/-- Where an entry of the output block sits in the output array. -/
theorem out_emb8 (t : Fin cfg0.N) (y : ((cfg0.win 8).xblock (grid0.coords t)).Idx) (k : S16384x1024.Idx)
    (hk0 : (k 0).val = 1024 * t.val + (y 0).val) (hk1 : (k 1).val = (y 1).val) :
    ((cfg0.win 8).blk t).view.emb y = k := by
  obtain ⟨-, -, e0, e1, -, -⟩ := idx_o t
  funext a
  apply Fin.ext
  match a with
  | ⟨0, _⟩ => show win0_8.index t 0 * 1024 + 1 * (y 0).val = (k 0).val; rw [e0, hk0]; omega
  | ⟨1, _⟩ => show win0_8.index t 1 * 1024 + 1 * (y 1).val = (k 1).val; rw [e1, hk1]; omega

/-- WHAT POINT t WRITES BACK is block t of `projectedScaled` of the three arrays as the region finds them. -/
theorem flushed_eq8 (c : Dev nD) (t : Fin cfg0.N) :
    (dat0 V c).flushed 8 t = ((cfg0.win 8).blk t).view.read (Elt Ideal) (projectedScaled (V c main_v0) (V c main_v4) (V c main_v8)) := by
  show (cfg0.win 8).cut (grid0.coords t) ((dat0 V c).after 8 t) = _
  rw [after0_8]
  unfold out0_8
  rw [View.canon_unit_zero hz]
  simp only [View.ld_unit_zero (S := S1024x1024) hz, View.ld_unit_zero (S := S1x1024) hz]
  funext y
  have ht : t.val < 16 := t.isLt
  have hy0 : (y 0).val < 1024 := (y 0).isLt
  have hy1 : (y 1).val < 1024 := (y 1).isLt
  have hy : (cfg0.win 8).xinj (grid0.coords t) y = ix2 (⟨(y 0).val, hy0⟩ : Fin 1024) (⟨(y 1).val, hy1⟩ : Fin 1024) :=
    funext fun a => Fin.ext (by
      match a with
      | ⟨0, _⟩ => rfl
      | ⟨1, _⟩ => rfl)
  have hemb := out_emb8 t y (ix2 (⟨1024 * t.val + (y 0).val, by omega⟩ : Fin 16384)
    (⟨(y 1).val, hy1⟩ : Fin 1024)) rfl rfl
  show k0_pay3 (iblk0 V c 0 t) (iblk0 V c 2 t) (iblk0 V c 5 t) ((cfg0.win 8).xinj (grid0.coords t) y)
    = projectedScaled (V c main_v0) (V c main_v4) (V c main_v8) (((cfg0.win 8).blk t).view.emb y)
  rw [hy, hemb]
  exact block_entry8 V c t _ _ _ rfl

/-- An index of the output array is in point t's block iff its row is among the block's 1024 rows. -/
theorem mem_blk8 (t : Fin cfg0.N) (i : S16384x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v10_1).slice (win0_8.rect t)).set ↔ _
  rw [View.set_slice_whole, Rect.mem_set_unit]
  exact Iff.rfl

/-- THE OUTPUT ARRAY after the region: the 16 blocks tile it (row p lies in block p / 1024), so it is `projectedScaled`. -/
theorem final8 (c : Dev nD) : (dat0 V c).arrAt 8 cfg0.N = projectedScaled (V c main_v0) (V c main_v4) (V c main_v8) :=
  (dat0 V c).arrAt_eq_of_cover 8 _ (fun t _ => flushed_eq8 V c t) fun i => by
    have h0 : (i 0).val < 16384 := (i 0).isLt
    have h1 : (i 1).val < 1024 := (i 1).isLt
    have hlt : (i 0).val / 1024 < cfg0.N := by show (i 0).val / 1024 < 16; omega
    obtain ⟨-, -, e0, e1, -, -⟩ := idx_o ⟨(i 0).val / 1024, hlt⟩
    refine ⟨⟨(i 0).val / 1024, hlt⟩, flush0_8 _, ?_⟩
    rw [mem_blk8]
    intro a
    match a with
    | ⟨0, _⟩ =>
      show win0_8.index ⟨(i 0).val / 1024, hlt⟩ 0 * 1024 ≤ (i 0).val
        ∧ (i 0).val < win0_8.index ⟨(i 0).val / 1024, hlt⟩ 0 * 1024 + 1024
      rw [e0]; show (i 0).val / 1024 * 1024 ≤ (i 0).val ∧ (i 0).val < (i 0).val / 1024 * 1024 + 1024; omega
    | ⟨1, _⟩ =>
      show win0_8.index ⟨(i 0).val / 1024, hlt⟩ 1 * 1024 ≤ (i 1).val
        ∧ (i 1).val < win0_8.index ⟨(i 0).val / 1024, hlt⟩ 1 * 1024 + 1024
      rw [e1]; omega

/-! ### Output 3: the values' projection -/

/-- The tile's stored value at (r, q) is `projected` at row p = 1024·t + r of the array, column q. -/
theorem block_entry9 (c : Dev nD) (t : Fin cfg0.N) (r q : Fin 1024) (p : Fin 16384) (hp : p.val = 1024 * t.val + r.val) :
    k0_pay4 (iblk0 V c 0 t) (iblk0 V c 3 t) (iblk0 V c 6 t) (ix2 r q) = projected (V c main_v0) (V c main_v6) (V c main_v9) (ix2 p q) := by
  refine (Cert.KernelIdeal.Body0.pay4_apply (iblk0 V c 0 t) (iblk0 V c 3 t) (iblk0 V c 6 t) r q).trans ?_
  rw [projected_apply]
  refine congrArg₂ (· + ·) (Finset.sum_congr rfl fun k _ => ?_) ?_
  · rw [rows_apply V c t (ix2 r k) (ix2 p k) hp rfl, weights3_apply V c t (ix2 k q) (ix2 k q) rfl rfl]
  · exact bias6_apply V c t (ix2 (0 : Fin 1) q) (ix2 (0 : Fin 1) q) rfl rfl

/-- Where an entry of the output block sits in the output array. -/
theorem out_emb9 (t : Fin cfg0.N) (y : ((cfg0.win 9).xblock (grid0.coords t)).Idx) (k : S16384x1024.Idx)
    (hk0 : (k 0).val = 1024 * t.val + (y 0).val) (hk1 : (k 1).val = (y 1).val) :
    ((cfg0.win 9).blk t).view.emb y = k := by
  obtain ⟨-, -, -, -, e0, e1⟩ := idx_o t
  funext a
  apply Fin.ext
  match a with
  | ⟨0, _⟩ => show win0_9.index t 0 * 1024 + 1 * (y 0).val = (k 0).val; rw [e0, hk0]; omega
  | ⟨1, _⟩ => show win0_9.index t 1 * 1024 + 1 * (y 1).val = (k 1).val; rw [e1, hk1]; omega

/-- WHAT POINT t WRITES BACK is block t of `projected` of the three arrays as the region finds them. -/
theorem flushed_eq9 (c : Dev nD) (t : Fin cfg0.N) :
    (dat0 V c).flushed 9 t = ((cfg0.win 9).blk t).view.read (Elt Ideal) (projected (V c main_v0) (V c main_v6) (V c main_v9)) := by
  show (cfg0.win 9).cut (grid0.coords t) ((dat0 V c).after 9 t) = _
  rw [after0_9]
  unfold out0_9
  rw [View.canon_unit_zero hz]
  simp only [View.ld_unit_zero (S := S1024x1024) hz, View.ld_unit_zero (S := S1x1024) hz]
  funext y
  have ht : t.val < 16 := t.isLt
  have hy0 : (y 0).val < 1024 := (y 0).isLt
  have hy1 : (y 1).val < 1024 := (y 1).isLt
  have hy : (cfg0.win 9).xinj (grid0.coords t) y = ix2 (⟨(y 0).val, hy0⟩ : Fin 1024) (⟨(y 1).val, hy1⟩ : Fin 1024) :=
    funext fun a => Fin.ext (by
      match a with
      | ⟨0, _⟩ => rfl
      | ⟨1, _⟩ => rfl)
  have hemb := out_emb9 t y (ix2 (⟨1024 * t.val + (y 0).val, by omega⟩ : Fin 16384)
    (⟨(y 1).val, hy1⟩ : Fin 1024)) rfl rfl
  show k0_pay4 (iblk0 V c 0 t) (iblk0 V c 3 t) (iblk0 V c 6 t) ((cfg0.win 9).xinj (grid0.coords t) y)
    = projected (V c main_v0) (V c main_v6) (V c main_v9) (((cfg0.win 9).blk t).view.emb y)
  rw [hy, hemb]
  exact block_entry9 V c t _ _ _ rfl

/-- An index of the output array is in point t's block iff its row is among the block's 1024 rows. -/
theorem mem_blk9 (t : Fin cfg0.N) (i : S16384x1024.Idx) :
    i ∈ ((cfg0.win 9).blk t).view.set ↔ ∀ a : Fin 2, win0_9.index t a * S1024x1024.size a ≤ (i a).val
      ∧ (i a).val < win0_9.index t a * S1024x1024.size a + S1024x1024.size a := by
  show i ∈ ((View.whole main_v10_2).slice (win0_9.rect t)).set ↔ _
  rw [View.set_slice_whole, Rect.mem_set_unit]
  exact Iff.rfl

/-- THE OUTPUT ARRAY after the region: the 16 blocks tile it (row p lies in block p / 1024), so it is `projected`. -/
theorem final9 (c : Dev nD) : (dat0 V c).arrAt 9 cfg0.N = projected (V c main_v0) (V c main_v6) (V c main_v9) :=
  (dat0 V c).arrAt_eq_of_cover 9 _ (fun t _ => flushed_eq9 V c t) fun i => by
    have h0 : (i 0).val < 16384 := (i 0).isLt
    have h1 : (i 1).val < 1024 := (i 1).isLt
    have hlt : (i 0).val / 1024 < cfg0.N := by show (i 0).val / 1024 < 16; omega
    obtain ⟨-, -, -, -, e0, e1⟩ := idx_o ⟨(i 0).val / 1024, hlt⟩
    refine ⟨⟨(i 0).val / 1024, hlt⟩, flush0_9 _, ?_⟩
    rw [mem_blk9]
    intro a
    match a with
    | ⟨0, _⟩ =>
      show win0_9.index ⟨(i 0).val / 1024, hlt⟩ 0 * 1024 ≤ (i 0).val
        ∧ (i 0).val < win0_9.index ⟨(i 0).val / 1024, hlt⟩ 0 * 1024 + 1024
      rw [e0]; show (i 0).val / 1024 * 1024 ≤ (i 0).val ∧ (i 0).val < (i 0).val / 1024 * 1024 + 1024; omega
    | ⟨1, _⟩ =>
      show win0_9.index ⟨(i 0).val / 1024, hlt⟩ 1 * 1024 ≤ (i 1).val
        ∧ (i 1).val < win0_9.index ⟨(i 0).val / 1024, hlt⟩ 1 * 1024 + 1024
      rw [e1]; omega

end Cert.KernelIdeal.Region0

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.LibRowMax.lean ====
/-
  A row maximum read at an index.

  At the exact values the lane maximum of an a x b matrix over its second axis, taken from minus infinity (the word
  0xFF800000 as accumulator), is at row p the maximum of the row's b entries: the fold of 'max' from minus infinity
  over the columns k of the entry (p, k).  This is the first step of a softmax over the last axis; the companion for
  the row sum is the same statement with '+' from zero.  The accumulator hypothesis is typed as a printed program
  carries it (an equation between two copies of the literal word).
-/
import Idealize.ShloMosaic.Lib.ValueIdx
import Idealize.ShloMosaic.PureOps.Ideal.Laws

noncomputable section

namespace Cert.RowMax

open Idealize.ShloMosaic Idealize.ShloMosaic.ValueIdx

/-- The lane maximum of a matrix over its second axis, from minus infinity, at row p: the fold of 'max' from minus
    infinity over the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k : Fin b => src (ix2 p k)) :=
  (Ideal.multiReduction_maximumf_single src 0xFF800000#32 h hφ hacc (ix1 p)).trans
    (congrArg (fun f => Finset.fold max (Ideal.ofBits .f32 0xFF800000#32) f (Finset.univ : Finset (Fin b)))
      (funext fun k => congrArg src (funext fun d => Fin.ext (by
        match d with
        | ⟨0, _⟩ => rfl
        | ⟨1, _⟩ => rfl))))

end Cert.RowMax

end
-- ==== Proof.Body1.lean ====
/-
  The attention tile's arithmetic, read at an entry.

  A tile holds 512 key rows kb, all 2048 query rows qb and all 2048 value rows vb of one batch; the tile's first key row
  is row 512·t of the batch, t the tile's position along the second grid axis.  Its stored value at (r, d) is: the logits
  of key row r against every query row (a contraction of the two rows), a softmax of that row of logits taken from its
  maximum, each weight negated where the column lies left of the row's position 512·t + r in the batch, and the signed
  weights' combination of the value rows.  That is `Cert.Attn.mix` of the row of logits.
-/
import proofs.«113429_j25366076850538_2_alg».proof.Proof.Gen.KernelIdeal.Skeleton
import proofs.«113429_j25366076850538_2_alg».proof.Proof.Spec
import proofs.«113429_j25366076850538_2_alg».proof.Proof.LibMatmul
import proofs.«113429_j25366076850538_2_alg».proof.Proof.LibKeepdims
import proofs.«113429_j25366076850538_2_alg».proof.Proof.LibColumnCasts
import proofs.«113429_j25366076850538_2_alg».proof.Proof.LibRowMax
import Idealize.ShloMosaic.Lib.Pipeline.Value
import Idealize.ShloMosaic.Lib.ValueIdx
import Idealize.ShloMosaic.PureOps.Ideal.Laws

noncomputable section

namespace Cert.KernelIdeal.Body1

open Idealize.ShloMosaic Idealize.ShloMosaic.ValueIdx Cert.KernelIdeal Cert.KernelIdeal.Gen

/-- The row maximum, as a column repeated along the row. -/
def rowMaxB (raw : FVec Ideal S512x2048 .f32) : FVec Ideal S512x2048 .f32 :=
  broadcastTo S512x2048 (shapeCast S512x1 (multiReduction .maximumf [1] S512 raw 0xFF800000#32 Facts₀.reduces_S512x2048_S512 (.inl rfl) rfl)
    Facts₀.shapeCasts_S512_S512x1) Facts₀.broadcasts_S512x1_S512x2048

theorem rowMaxB_apply (raw : FVec Ideal S512x2048 .f32) (r : Fin 512) (l : Fin 2048) :
    rowMaxB raw (ix2 r l) = Cert.Attn.rowMax (fun k => raw (ix2 r k)) := by
  unfold rowMaxB Cert.Attn.rowMax
  rw [Cert.Keepdims.broadcastTo_a1_ab_apply _ Facts₀.broadcasts_S512x1_S512x2048 r l,
    Cert.Keepdims.shapeCast_a_a1_apply _ Facts₀.shapeCasts_S512_S512x1 r 0,
    Cert.RowMax.laneMax_apply raw Facts₀.reduces_S512x2048_S512 (.inl rfl) rfl r]

/-- The exponentials of a row's logits less the row's maximum. -/
def expB (raw : FVec Ideal S512x2048 .f32) : FVec Ideal S512x2048 .f32 := exp (subf raw (rowMaxB raw))

theorem expB_apply (raw : FVec Ideal S512x2048 .f32) (r : Fin 512) (l : Fin 2048) :
    expB raw (ix2 r l) = Ideal.exp (raw (ix2 r l) - Cert.Attn.rowMax (fun k => raw (ix2 r k))) := by
  unfold expB
  rw [show exp (subf raw (rowMaxB raw)) (ix2 r l) = Ideal.exp (subf raw (rowMaxB raw) (ix2 r l)) from rfl, subf_apply, rowMaxB_apply]

/-- A row's sum, as a column repeated along the row. -/
def rowSumB (e : FVec Ideal S512x2048 .f32) : FVec Ideal S512x2048 .f32 :=
  broadcastTo S512x2048 (shapeCast S512x1 (multiReduction .add [1] S512 e 0x00000000#32 Facts₀.reduces_S512x2048_S512 (.inl rfl) rfl)
    Facts₀.shapeCasts_S512_S512x1) Facts₀.broadcasts_S512x1_S512x2048

theorem rowSumB_apply (e : FVec Ideal S512x2048 .f32) (r : Fin 512) (l : Fin 2048) :
    rowSumB e (ix2 r l) = ∑ k : Fin 2048, e (ix2 r k) := by
  unfold rowSumB
  rw [Cert.Keepdims.broadcastTo_a1_ab_apply _ Facts₀.broadcasts_S512x1_S512x2048 r l,
    Cert.Keepdims.shapeCast_a_a1_apply _ Facts₀.shapeCasts_S512_S512x1 r 0,
    Cert.ColumnCasts.rowSum_apply e Facts₀.reduces_S512x2048_S512 (.inl rfl) rfl r]

/-- The softmax weights of every row. -/
def softB (raw : FVec Ideal S512x2048 .f32) : FVec Ideal S512x2048 .f32 := divf (expB raw) (rowSumB (expB raw))

theorem softB_apply (raw : FVec Ideal S512x2048 .f32) (r : Fin 512) (l : Fin 2048) :
    softB raw (ix2 r l) = Cert.Attn.soft (fun k => raw (ix2 r k)) l := by
  unfold softB Cert.Attn.soft
  rw [divf_apply, rowSumB_apply, expB_apply]
  refine congrArg (Ideal.div _) ?_
  exact Finset.sum_congr rfl fun k _ => expB_apply raw r k

/-! ### The sign mask: column against the row's position in the batch -/

/-- A number below 2^31, as a 32-bit word read signed, is itself. -/
theorem toInt_ofNat_small (a : Nat) (ha : a < 2 ^ 31) : (BitVec.ofNat 32 a).toInt = (a : Int) := by
  rw [BitVec.toInt_eq_toNat_cond, BitVec.toNat_ofNat]
  have : a % 2 ^ 32 = a := Nat.mod_eq_of_lt (by omega)
  rw [this]
  split
  · rfl
  · omega

/-- Signed comparison of two such words is the comparison of the numbers. -/
theorem sle_ofNat (a b : Nat) (ha : a < 2 ^ 31) (hb : b < 2 ^ 31) :
    (BitVec.ofNat 32 a).sle (BitVec.ofNat 32 b) = decide (a ≤ b) := by
  unfold BitVec.sle
  rw [toInt_ofNat_small a ha, toInt_ofNat_small b hb]
  simp

/-- The word of the row's position: tile offset 512·t plus the row inside the tile. -/
theorem word_row (t r : Nat) : BitVec.ofNat 32 t * 512#32 + BitVec.ofNat 32 r = BitVec.ofNat 32 (t * 512 + r) := by
  apply BitVec.eq_of_toNat_eq
  simp [BitVec.toNat_add, BitVec.toNat_mul, BitVec.toNat_ofNat]

/-- The mask of a tile at grid position i: column index against 512·(i 1) plus the row index. -/
def maskB (i : grid1.Coords) : IVec S512x2048 1 :=
  cmpi .sge (iota .tc S512x2048 32 [1] Facts₀.iota_S512x2048_d1_w32)
    (addi (broadcast S512x2048 (Scalar.muli (BitVec.ofNat 32 (i 1).val) 512#32)) (iota .tc S512x2048 32 [0] Facts₀.iota_S512x2048_d0_w32))

theorem maskB_apply (i : grid1.Coords) (r : Fin 512) (l j : Fin 2048) (hj : j.val = (i 1).val * 512 + r.val) :
    maskB i (ix2 r l) = if j ≤ l then 1#1 else 0#1 := by
  have hi : (i 1).val < 4 := (i 1).isLt
  show IntOp.cmpi .sge (BitVec.ofNat 32 (0 * 2048 + l.val)) (BitVec.ofNat 32 (i 1).val * 512#32 + BitVec.ofNat 32 (0 * 512 + r.val)) = _
  simp only [Nat.zero_mul, Nat.zero_add]
  rw [word_row]
  show BitVec.ofBool ((BitVec.ofNat 32 ((i 1).val * 512 + r.val)).sle (BitVec.ofNat 32 l.val)) = _
  rw [sle_ofNat _ _ (by have := r.isLt; omega) (by have := l.isLt; omega)]
  by_cases h : j ≤ l
  · rw [if_pos h, decide_eq_true (by have : j.val ≤ l.val := h; omega)]; rfl
  · rw [if_neg h, decide_eq_false (by have : ¬ j.val ≤ l.val := h; omega)]; rfl

/-- The signed weights of a tile. -/
def signedB (i : grid1.Coords) (raw : FVec Ideal S512x2048 .f32) : FVec Ideal S512x2048 .f32 :=
  select (maskB i) (softB raw) (subf (broadcast S512x2048 (Scalar.ofBits (F := Ideal) .f32 0x00000000#32)) (softB raw))

theorem signedB_apply (i : grid1.Coords) (raw : FVec Ideal S512x2048 .f32) (r : Fin 512) (l j : Fin 2048)
    (hj : j.val = (i 1).val * 512 + r.val) :
    signedB i raw (ix2 r l) = Cert.Attn.signed (fun k => raw (ix2 r k)) j l := by
  unfold signedB Cert.Attn.signed
  rw [select_apply, maskB_apply i r l j hj, subf_apply, broadcast_apply, softB_apply]
  by_cases h : j ≤ l
  · rw [if_pos h, if_pos h, select_one]
  · rw [if_neg h, if_neg h, select_zero]
    show Ideal.ofBits .f32 0x00000000#32 - _ = _
    rw [Ideal.ofBits_zero_f32, zero_sub]

/-! ### The tile's stored value -/

/-- The logits of a tile: key row r against query row l. -/
def logitsB (kb : Vec Ideal S512x1024 .bf16) (qb : Vec Ideal S2048x1024 .bf16) : FVec Ideal S512x2048 .f32 :=
  matmul (φ₁ := .bf16) (φ₂ := .bf16) dot_S512x1024_S2048x1024_S512x2048_1_1_0_0_n_n none
    (shapeCast (α := Ideal .bf16) S512x1024 kb Facts₀.shapeCasts_S512x1024_S512x1024)
    (shapeCast (α := Ideal .bf16) S2048x1024 qb Facts₀.shapeCasts_S2048x1024_S2048x1024) (constant S512x2048 .f32 0x00000000#32)

theorem logitsB_apply (kb : Vec Ideal S512x1024 .bf16) (qb : Vec Ideal S2048x1024 .bf16) (r : Fin 512) (l : Fin 2048) :
    logitsB kb qb (ix2 r l) = ∑ e : Fin 1024, kb (ix2 r e) * qb (ix2 l e) := by
  unfold logitsB
  rw [shapeCast_self, shapeCast_self]
  exact Cert.MatmulAt.matmul_zero_nt_apply (φ₁ := .bf16) (φ₂ := .bf16) Facts₀.dot_S512x1024_S2048x1024_S512x2048_1_1_0_0_n_n_wf none kb qb r l

/-- The payload is the signed weights of the logits times the value rows. -/
theorem pay1_eq (i : grid1.Coords) (kb : Vec Ideal S512x1024 .bf16) (qb vb : Vec Ideal S2048x1024 .bf16) :
    k1_pay1 i kb qb vb
      = matmul (φ₁ := .bf16) (φ₂ := .bf16) dot_S512x2048_S2048x1024_S512x1024_1_0_0_1_n_n none
          (truncf .bf16 (signedB i (logitsB kb qb)) Facts₀.bitsLt_bf16_f32)
          (shapeCast (α := Ideal .bf16) S2048x1024 vb Facts₀.shapeCasts_S2048x1024_S2048x1024) (constant S512x1024 .f32 0x00000000#32) := rfl

/-- The tile's stored value at (r, d): row j = 512·(i 1) + r of the batch. -/
theorem pay1_apply (i : grid1.Coords) (kb : Vec Ideal S512x1024 .bf16) (qb vb : Vec Ideal S2048x1024 .bf16)
    (r : Fin 512) (d : Fin 1024) (j : Fin 2048) (hj : j.val = (i 1).val * 512 + r.val) :
    k1_pay1 i kb qb vb (ix2 r d)
      = Cert.Attn.mix (fun l => ∑ e : Fin 1024, kb (ix2 r e) * qb (ix2 l e)) (fun l d' => vb (ix2 l d')) j d := by
  rw [pay1_eq, shapeCast_self]
  refine (Cert.MatmulAt.matmul_zero_plain_apply (φ₁ := .bf16) (φ₂ := .bf16) Facts₀.dot_S512x2048_S2048x1024_S512x1024_1_0_0_1_n_n_wf none _ vb r d).trans ?_
  unfold Cert.Attn.mix
  refine Finset.sum_congr rfl fun l _ => ?_
  rw [truncf_apply, signedB_apply i _ r l j hj]
  refine congrArg (fun f => Cert.Attn.signed f j l * vb (ix2 l d)) ?_
  funext k
  exact logitsB_apply kb qb r k

end Cert.KernelIdeal.Body1

end
-- ==== Proof.Region1.lean ====
/-
  The attention region: from its tiles to its output array.

  The region runs over 8 x 4 grid points; point t works on batch t / 4 and on the key rows 512·t … 512·t + 511 of the
  flattened 16384 x 1024 layout (tile t % 4 of that batch), with all 2048 query rows and value rows of the batch, and
  writes back rows 512·t … 512·t + 511 of the output.  The 32 blocks tile the output, so after the region the output
  array is, at row p and column d, the signed-softmax mix of row p's logits against its batch's queries, applied to its
  batch's values: one function `attended` of the three arrays the region reads, whatever they hold.
-/
import proofs.«113429_j25366076850538_2_alg».proof.Proof.FrameKernelIdeal
import proofs.«113429_j25366076850538_2_alg».proof.Proof.Body1
import proofs.«113429_j25366076850538_2_alg».proof.Proof.Flat
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.KernelIdeal.GenP Cert.Attn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the key and output blocks advance with the point, the query and value blocks
    with the batch, and the second grid coordinate is the tile's position in its batch. -/
theorem idx_facts : ∀ t : Fin cfg1.N,
    win1_0.index t (0 : Fin 2) = t.val ∧ win1_0.index t (1 : Fin 2) = 0
    ∧ win1_1.index t (0 : Fin 2) = t.val / 4 ∧ win1_1.index t (1 : Fin 2) = 0
    ∧ win1_2.index t (0 : Fin 2) = t.val / 4 ∧ win1_2.index t (1 : Fin 2) = 0
    ∧ win1_3.index t (0 : Fin 2) = t.val ∧ win1_3.index t (1 : Fin 2) = 0
    ∧ (grid1.coords t 1).val = t.val % 4 :=
  (by decide +kernel : ∀ t : Fin grid1.N, _)

/-- The key block at point t is rows 512·t … of the keys. -/
theorem keys_apply (c : Dev nD) (t : Fin cfg1.N) (x : S512x1024.Idx) (k : S16384x1024.Idx)
    (hk0 : (k 0).val = 512 * t.val + (x 0).val) (hk1 : (k 1).val = (x 1).val) :
    (iblk1 V c 0 t : Vec Ideal S512x1024 .bf16) x = (V c main_v10_0 : S16384x1024.Idx → EReal) k := by
  obtain ⟨e0, e1, -⟩ := idx_facts t
  unfold iblk1
  rw [View.read_apply]
  show V c main_v10_0 _ = V c main_v10_0 _
  congr 1
  funext a
  apply Fin.ext
  match a with
  | ⟨0, _⟩ => show win1_0.index t 0 * 512 + 1 * (x 0).val = (k 0).val; rw [e0, hk0]; omega
  | ⟨1, _⟩ => show win1_0.index t 1 * 1024 + 1 * (x 1).val = (k 1).val; rw [e1, hk1]; omega

/-- The query block at point t is the 2048 rows of batch t / 4 of the queries. -/
theorem queries_apply (c : Dev nD) (t : Fin cfg1.N) (x : S2048x1024.Idx) (k : S16384x1024.Idx)
    (hk0 : (k 0).val = 2048 * (t.val / 4) + (x 0).val) (hk1 : (k 1).val = (x 1).val) :
    (iblk1 V c 1 t : Vec Ideal S2048x1024 .bf16) x = (V c main_v10_1 : S16384x1024.Idx → EReal) k := by
  obtain ⟨-, -, e0, e1, -⟩ := idx_facts t
  unfold iblk1
  rw [View.read_apply]
  show V c main_v10_1 _ = V c main_v10_1 _
  congr 1
  funext a
  apply Fin.ext
  match a with
  | ⟨0, _⟩ => show win1_1.index t 0 * 2048 + 1 * (x 0).val = (k 0).val; rw [e0, hk0]; omega
  | ⟨1, _⟩ => show win1_1.index t 1 * 1024 + 1 * (x 1).val = (k 1).val; rw [e1, hk1]; omega

/-- The value block at point t is the 2048 rows of batch t / 4 of the values. -/
theorem values_apply (c : Dev nD) (t : Fin cfg1.N) (x : S2048x1024.Idx) (k : S16384x1024.Idx)
    (hk0 : (k 0).val = 2048 * (t.val / 4) + (x 0).val) (hk1 : (k 1).val = (x 1).val) :
    (iblk1 V c 2 t : Vec Ideal S2048x1024 .bf16) x = (V c main_v10_2 : S16384x1024.Idx → EReal) k := by
  obtain ⟨-, -, -, -, e0, e1, -⟩ := idx_facts t
  unfold iblk1
  rw [View.read_apply]
  show V c main_v10_2 _ = V c main_v10_2 _
  congr 1
  funext a
  apply Fin.ext
  match a with
  | ⟨0, _⟩ => show win1_2.index t 0 * 2048 + 1 * (x 0).val = (k 0).val; rw [e0, hk0]; omega
  | ⟨1, _⟩ => show win1_2.index t 1 * 1024 + 1 * (x 1).val = (k 1).val; rw [e1, hk1]; omega

/-- Where rows sit: row 512·t + r of the flattened layout is row (t % 4)·512 + r of batch t / 4. -/
theorem row_arith (t r : Nat) (ht : t < 32) (hr : r < 512) :
    (512 * t + r) / 2048 = t / 4 ∧ (512 * t + r) % 2048 = (t % 4) * 512 + r := by omega

/-- The tile's stored value at (r, d) is `attended` at row p = 512·t + r of the array, column d. -/
theorem block_entry (c : Dev nD) (t : Fin cfg1.N) (r : Fin 512) (d : Fin 1024) (j : Fin 2048) (p : Fin 16384)
    (hj : j.val = (t.val % 4) * 512 + r.val) (hp : p.val = 512 * t.val + r.val) :
    k1_pay1 (grid1.coords t) (iblk1 V c 0 t) (iblk1 V c 1 t) (iblk1 V c 2 t) (ix2 r d)
      = attended (V c main_v10_0) (V c main_v10_1) (V c main_v10_2) (ix2 p d) := by
  have ht : t.val < 32 := t.isLt
  obtain ⟨a1, a2⟩ := row_arith t.val r.val ht r.isLt
  have hb : (batchOf p).val = t.val / 4 := by show p.val / 2048 = t.val / 4; rw [hp]; exact a1
  have hjp : rowOf p = j := Fin.ext (by show p.val % 2048 = j.val; rw [hp, hj]; exact a2)
  have hq : ∀ l : Fin 2048, (row (batchOf p) l).val = 2048 * (t.val / 4) + l.val := fun l => by
    rw [row_val, hb]; omega
  have e8 : (grid1.coords t 1).val = t.val % 4 := (idx_facts t).2.2.2.2.2.2.2.2
  refine (Cert.KernelIdeal.Body1.pay1_apply (grid1.coords t) (iblk1 V c 0 t) (iblk1 V c 1 t) (iblk1 V c 2 t) r d j
    (by rw [e8]; exact hj)).trans ?_
  rw [attended_apply, hjp]
  refine congrArg₂ (fun f g => mix f g j d) (funext fun l => Finset.sum_congr rfl fun e _ => ?_)
    (funext fun l => funext fun d' => ?_)
  · rw [keys_apply V c t (ix2 r e) (ix2 p e) hp rfl,
      queries_apply V c t (ix2 l e) (ix2 (row (batchOf p) l) e) (hq l) rfl]
  · exact values_apply V c t (ix2 l d') (ix2 (row (batchOf p) l) d') (hq l) rfl

/-- Where an entry of the output block sits in the output array. -/
theorem out_emb (t : Fin cfg1.N) (y : ((cfg1.win 3).xblock (grid1.coords t)).Idx) (k : S16384x1024.Idx)
    (hk0 : (k 0).val = 512 * t.val + (y 0).val) (hk1 : (k 1).val = (y 1).val) :
    ((cfg1.win 3).blk t).view.emb y = k := by
  have e6 : win1_3.index t (0 : Fin 2) = t.val := (idx_facts t).2.2.2.2.2.2.1
  have e7 : win1_3.index t (1 : Fin 2) = 0 := (idx_facts t).2.2.2.2.2.2.2.1
  funext a
  apply Fin.ext
  match a with
  | ⟨0, _⟩ => show win1_3.index t 0 * 512 + 1 * (y 0).val = (k 0).val; rw [e6, hk0]; omega
  | ⟨1, _⟩ => show win1_3.index t 1 * 1024 + 1 * (y 1).val = (k 1).val; rw [e7, hk1]; omega

/-- WHAT POINT t WRITES BACK is block t of `attended` of the three arrays as the region finds them. -/
theorem flushed_eq (c : Dev nD) (t : Fin cfg1.N) :
    (dat1 V c).flushed 3 t
      = ((cfg1.win 3).blk t).view.read (Elt Ideal) (attended (V c main_v10_0) (V c main_v10_1) (V c main_v10_2)) := by
  show (cfg1.win 3).cut (grid1.coords t) ((dat1 V c).after 3 t) = _
  rw [after1_3]
  unfold out1_3
  rw [View.canon_unit_zero hz]
  simp only [View.ld_unit_zero (S := S512x1024) hz, View.ld_unit_zero (S := S2048x1024) hz]
  funext y
  have ht : t.val < 32 := t.isLt
  have hy0 : (y 0).val < 512 := (y 0).isLt
  have hy1 : (y 1).val < 1024 := (y 1).isLt
  have hy : (cfg1.win 3).xinj (grid1.coords t) y = ix2 (⟨(y 0).val, hy0⟩ : Fin 512) (⟨(y 1).val, hy1⟩ : Fin 1024) :=
    funext fun a => Fin.ext (by
      match a with
      | ⟨0, _⟩ => rfl
      | ⟨1, _⟩ => rfl)
  have hemb := out_emb t y (ix2 (⟨512 * t.val + (y 0).val, by omega⟩ : Fin 16384)
    (⟨(y 1).val, hy1⟩ : Fin 1024)) rfl rfl
  show k1_pay1 (grid1.coords t) (iblk1 V c 0 t) (iblk1 V c 1 t) (iblk1 V c 2 t) ((cfg1.win 3).xinj (grid1.coords t) y)
    = attended (V c main_v10_0) (V c main_v10_1) (V c main_v10_2) (((cfg1.win 3).blk t).view.emb y)
  rw [hy, hemb]
  exact block_entry V c t _ _ ⟨(t.val % 4) * 512 + (y 0).val, by omega⟩ _ rfl rfl

/-- An index of the output array is in point t's block iff its row is among the block's 512 rows. -/
theorem mem_blk (t : Fin cfg1.N) (i : S16384x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v11).slice (win1_3.rect t)).set ↔ _
  rw [View.set_slice_whole, Rect.mem_set_unit]
  exact Iff.rfl

/-- THE OUTPUT ARRAY after the region: the 32 blocks tile it (row p lies in block p / 512), so it is `attended`. -/
theorem final (c : Dev nD) :
    (dat1 V c).arrAt 3 cfg1.N = attended (V c main_v10_0) (V c main_v10_1) (V c main_v10_2) :=
  (dat1 V c).arrAt_eq_of_cover 3 _ (fun t _ => flushed_eq V c t) fun i => by
    have h0 : (i 0).val < 16384 := (i 0).isLt
    have h1 : (i 1).val < 1024 := (i 1).isLt
    have hlt : (i 0).val / 512 < cfg1.N := by show (i 0).val / 512 < 32; omega
    obtain ⟨-, -, -, -, -, -, e6, e7, -⟩ := idx_facts ⟨(i 0).val / 512, hlt⟩
    refine ⟨⟨(i 0).val / 512, hlt⟩, flush1_3 _, ?_⟩
    rw [mem_blk]
    intro a
    match a with
    | ⟨0, _⟩ =>
      show win1_3.index ⟨(i 0).val / 512, hlt⟩ 0 * 512 ≤ (i 0).val ∧ (i 0).val < win1_3.index ⟨(i 0).val / 512, hlt⟩ 0 * 512 + 512
      rw [e6]; show (i 0).val / 512 * 512 ≤ (i 0).val ∧ (i 0).val < (i 0).val / 512 * 512 + 512; omega
    | ⟨1, _⟩ =>
      show win1_3.index ⟨(i 0).val / 512, hlt⟩ 1 * 1024 ≤ (i 1).val ∧ (i 1).val < win1_3.index ⟨(i 0).val / 512, hlt⟩ 1 * 1024 + 1024
      rw [e7]; omega

end Cert.KernelIdeal.Region1

end
-- ==== Proof.HostSide.lean ====
/-
  The host operations around the two kernel regions, as closed terms over the launch memory.

  Before the first region the input is reshaped to a matrix of rows, each weight matrix is transposed and then
  narrowed in format, and each bias is reshaped to a one-row matrix; after the second region the matrix of output rows
  is reshaped back to the input's shape.  Each buffer these operations write holds, at the region's entry (or at the
  program's end), the corresponding operation applied to the launch contents of its operand.
-/
import proofs.«113429_j25366076850538_2_alg».proof.Proof.FrameKernelIdeal
import Idealize.ShloMosaic.Lib.StableHlo.Run
import Idealize.ShloMosaic.PureOps.Ideal

noncomputable section

namespace Cert.KernelIdeal.HostSide

open Cert.KernelIdeal Cert.KernelIdeal.Gen Cert.KernelIdeal.GenP
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The input, reshaped to rows. -/
theorem V1_v0 : (GenP.V1 m ρ c main_v0 : S16384x1024.Idx → EReal)
    = shapeCast S16384x1024 (m ((c : Thread nD τ).loc main_arg0)) Facts₀.shapeCasts_S8x2048x1024_S16384x1024 := by
  dsimp only [GenP.V1, GenP.W1, GenP.W0]
  after_results
  rfl

/-- The first weight matrix, transposed and narrowed. -/
theorem V1_v2 : (GenP.V1 m ρ c main_v2 : S1024x1024.Idx → EReal)
    = truncf (F := Ideal) .bf16 (transpose S1024x1024 [1, 0] (m ((c : Thread nD τ).loc main_arg1))
        Facts₀.transposes_S1024x1024_S1024x1024_1_0) Facts₀.bitsLt_bf16_f32 := by
  dsimp only [GenP.V1, GenP.W1, GenP.W0]
  after_results

/-- The second weight matrix, transposed and narrowed. -/
theorem V1_v4 : (GenP.V1 m ρ c main_v4 : S1024x1024.Idx → EReal)
    = truncf (F := Ideal) .bf16 (transpose S1024x1024 [1, 0] (m ((c : Thread nD τ).loc main_arg3))
        Facts₀.transposes_S1024x1024_S1024x1024_1_0) Facts₀.bitsLt_bf16_f32 := by
  dsimp only [GenP.V1, GenP.W1, GenP.W0]
  after_results

/-- The third weight matrix, transposed and narrowed. -/
theorem V1_v6 : (GenP.V1 m ρ c main_v6 : S1024x1024.Idx → EReal)
    = truncf (F := Ideal) .bf16 (transpose S1024x1024 [1, 0] (m ((c : Thread nD τ).loc main_arg5))
        Facts₀.transposes_S1024x1024_S1024x1024_1_0) Facts₀.bitsLt_bf16_f32 := by
  dsimp only [GenP.V1, GenP.W1, GenP.W0]
  after_results

/-- The first bias, as a one-row matrix. -/
theorem V1_v7 : (GenP.V1 m ρ c main_v7 : S1x1024.Idx → EReal)
    = shapeCast S1x1024 (m ((c : Thread nD τ).loc main_arg2)) Facts₀.shapeCasts_S1024_S1x1024 := by
  dsimp only [GenP.V1, GenP.W1, GenP.W0]
  after_results
  rfl

/-- The second bias, as a one-row matrix. -/
theorem V1_v8 : (GenP.V1 m ρ c main_v8 : S1x1024.Idx → EReal)
    = shapeCast S1x1024 (m ((c : Thread nD τ).loc main_arg4)) Facts₀.shapeCasts_S1024_S1x1024 := by
  dsimp only [GenP.V1, GenP.W1, GenP.W0]
  after_results
  rfl

/-- The third bias, as a one-row matrix. -/
theorem V1_v9 : (GenP.V1 m ρ c main_v9 : S1x1024.Idx → EReal)
    = shapeCast S1x1024 (m ((c : Thread nD τ).loc main_arg6)) Facts₀.shapeCasts_S1024_S1x1024 := by
  dsimp only [GenP.V1, GenP.W1, GenP.W0]
  after_results
  rfl

/-- The result: the second region's output rows, reshaped to the input's shape. -/
theorem W4_v12 : (GenP.W4 m ρ c (Proc.devRef .tc main_v12) : S8x2048x1024.Idx → EReal)
    = shapeCast S8x2048x1024 (GenP.W3 m ρ c (Proc.devRef .tc main_v11)) Facts₀.shapeCasts_S16384x1024_S8x2048x1024 := by
  dsimp only [GenP.W4]
  after_results
  rfl

end Cert.KernelIdeal.HostSide

end
-- ==== Proof.HostLayout.lean ====
/-
  Layout operations around the dense layers, read at an index.

  The input `[8, 2048, 1024]` is flattened to `[16384, 1024]` rows and the result unflattened back: row `(b, s)` of the
  stack is row `b * 2048 + s` of the matrix, since both indices have the same row-major position
  `(b * 2048 + s) * 1024 + k`.  A bias `[1024]` is read as the one row of a `[1, 1024]` matrix, and a square weight
  matrix transposed reads, at `(k, q)`, the operand at `(q, k)`.
-/
import Idealize.ShloMosaic.Lib.Pipeline.Value
import Idealize.ShloMosaic.Lib.ValueIdx
import Idealize.ShloMosaic.Lib.ValueLayout
import proofs.«113429_j25366076850538_2_alg».proof.Proof.Rows

namespace Cert.HostLayout

open Idealize.ShloMosaic Idealize.ShloMosaic.ValueIdx Cert.Attn

variable {α : Type}

/-- The stack flattened to a matrix reads, at row `row b s`, column `k`, the stack at `(b, s, k)`. -/
theorem flatten_apply (x : (⟨3, ![8, 2048, 1024]⟩ : Shape).Idx → α)
    (h : (⟨3, ![8, 2048, 1024]⟩ : Shape).ShapeCasts ⟨2, ![16384, 1024]⟩) (b : Fin 8) (s : Fin 2048) (k : Fin 1024) :
    shapeCast ⟨2, ![16384, 1024]⟩ x h (ix2 (row b s) k) = x (ix3 b s k) :=
  shapeCast_apply x h _ _ (by
    rw [Shape.rowMajor_val_three, Shape.rowMajor_val_two]
    show (b.val * 2048 + s.val) * 1024 + k.val = (b.val * 2048 + s.val) * 1024 + k.val
    rfl)

/-- The matrix unflattened to a stack reads, at `(b, s, k)`, the matrix at row `row b s`, column `k`. -/
theorem unflatten_apply (o : (⟨2, ![16384, 1024]⟩ : Shape).Idx → α)
    (h : (⟨2, ![16384, 1024]⟩ : Shape).ShapeCasts ⟨3, ![8, 2048, 1024]⟩) (b : Fin 8) (s : Fin 2048) (k : Fin 1024) :
    shapeCast ⟨3, ![8, 2048, 1024]⟩ o h (ix3 b s k) = o (ix2 (row b s) k) :=
  shapeCast_apply o h _ _ (by
    rw [Shape.rowMajor_val_three, Shape.rowMajor_val_two]
    show (b.val * 2048 + s.val) * 1024 + k.val = (b.val * 2048 + s.val) * 1024 + k.val
    rfl)

/-- A bias read as the one row of a `[1, 1024]` matrix. -/
theorem biasRow_apply (β : (⟨1, ![1024]⟩ : Shape).Idx → α) (h : (⟨1, ![1024]⟩ : Shape).ShapeCasts ⟨2, ![1, 1024]⟩)
    (u : Fin 1) (q : Fin 1024) : shapeCast ⟨2, ![1, 1024]⟩ β h (ix2 u q) = β (ix1 q) :=
  shapeCast_a_1a_apply β h u q

/-- A square matrix transposed reads, at `(k, q)`, the operand at `(q, k)`. -/
theorem transpose_apply (W : (⟨2, ![1024, 1024]⟩ : Shape).Idx → α)
    (h : (⟨2, ![1024, 1024]⟩ : Shape).Transposes [1, 0] ⟨2, ![1024, 1024]⟩) (k q : Fin 1024) :
    transpose ⟨2, ![1024, 1024]⟩ [1, 0] W h (ix2 k q) = W (ix2 q k) :=
  transpose_ix2_apply W h k q

end Cert.HostLayout
-- ==== Proof.Compose.lean ====
/-
  The two regions composed with the layout operations around them.

  The kernel flattens the input to 16384 x 1024, transposes the three weight matrices to [in, out] (and changes their
  format, which keeps every value), views the three biases as 1 x 1024 rows, projects (region 0), attends (region 1)
  and restores the 8 x 2048 x 1024 layout.  Read at batch b, row j, feature d the composition is attention with
  pre-scaled queries, `Cert.Attn.attnScaled`: a projected entry at flattened row 2048·b + s is the dense layer's entry at
  (b, s), and the rows the attention region pairs with row 2048·b + j are those of batch b.
-/
import proofs.«113429_j25366076850538_2_alg».proof.Proof.Flat
import proofs.«113429_j25366076850538_2_alg».proof.Proof.HostLayout
import Idealize.ShloMosaic.Lib.ValueIdx

noncomputable section

namespace Cert.Attn.Compose

open Idealize.ShloMosaic Idealize.ShloMosaic.ValueIdx Cert.Attn

/-- A projected entry of the flattened layout is the dense layer's entry of the batch and row it flattens. -/
theorem dense_flat (x : SX.Idx → EReal) (W : SW.Idx → EReal) (β : SB.Idx → EReal)
    (h1 : SX.ShapeCasts SF) (h2 : SW.Transposes [1, 0] SW) (h3 : FTy.bits .bf16 < FTy.bits .f32) (h4 : SB.ShapeCasts SR)
    (b : Fin 8) (s : Fin 2048) (o : Fin 1024) :
    projected (shapeCast SF x h1) (truncf (F := Ideal) (φ := .f32) .bf16 (transpose SW [1, 0] W h2) h3) (shapeCast SR β h4)
        (ix2 (row b s) o)
      = dense x W β b s o := by
  rw [projected_apply]
  unfold dense
  refine congrArg₂ (· + ·) (Finset.sum_congr rfl fun k _ => ?_) (Cert.HostLayout.biasRow_apply β h4 0 o)
  rw [Cert.HostLayout.flatten_apply x h1 b s k, truncf_apply, Cert.HostLayout.transpose_apply W h2 k o]

theorem projectedScaled_eq (xf : SF.Idx → EReal) (w : SW.Idx → EReal) (β : SR.Idx → EReal) (i : SF.Idx) :
    projectedScaled xf w β i = projected xf w β i * Ideal.ofBits .f32 0x3D000000#32 := rfl

/-- Flatten, project, attend, restore: attention with pre-scaled queries. -/
theorem composed (x : SX.Idx → EReal) (Wk : SW.Idx → EReal) (bk : SB.Idx → EReal) (Wq : SW.Idx → EReal) (bq : SB.Idx → EReal)
    (Wv : SW.Idx → EReal) (bv : SB.Idx → EReal)
    (h1 : SX.ShapeCasts SF) (h2 : SW.Transposes [1, 0] SW) (h3 : FTy.bits .bf16 < FTy.bits .f32) (h4 : SB.ShapeCasts SR)
    (h5 : SF.ShapeCasts SX) :
    shapeCast SX
        (attended
          (projected (shapeCast SF x h1) (truncf (F := Ideal) (φ := .f32) .bf16 (transpose SW [1, 0] Wk h2) h3) (shapeCast SR bk h4))
          (projectedScaled (shapeCast SF x h1) (truncf (F := Ideal) (φ := .f32) .bf16 (transpose SW [1, 0] Wq h2) h3) (shapeCast SR bq h4))
          (projected (shapeCast SF x h1) (truncf (F := Ideal) (φ := .f32) .bf16 (transpose SW [1, 0] Wv h2) h3) (shapeCast SR bv h4)))
        h5
      = attnScaled x Wk bk Wq bq Wv bv := by
  funext i
  obtain ⟨b, j, d, rfl⟩ : ∃ (b : Fin 8) (j : Fin 2048) (d : Fin 1024), i = ix3 b j d := ⟨i 0, i 1, i 2, eq_ix3 i⟩
  rw [Cert.HostLayout.unflatten_apply _ h5 b j d, attended_apply, batchOf_row, rowOf_row, attnScaled_apply]
  unfold attnScaledAt
  refine congrArg₂ (fun f g => mix f g j d) (funext fun l => ?_) (funext fun l => funext fun d' => ?_)
  · unfold logitsScaled
    refine Finset.sum_congr rfl fun e _ => ?_
    rw [dense_flat x Wk bk h1 h2 h3 h4 b j e, projectedScaled_eq, dense_flat x Wq bq h1 h2 h3 h4 b l e]
  · exact dense_flat x Wv bv h1 h2 h3 h4 b l d'

end Cert.Attn.Compose

end
-- ==== Proof.KernelValue.lean ====
/-
  What the kernel program returns, as a function of its arguments.

  After the last host operation the result buffer holds the attention region's output array restored to the
  8 x 2048 x 1024 layout; that array is `attended` of the three arrays the projection region left; those are `projected`
  (the queries `projectedScaled`) of the flattened input, the transposed weights and the bias rows that the host operations
  before the regions wrote.  Composed (`Cert.Attn.Compose.composed`): attention with pre-scaled queries of the seven
  argument arrays.
-/
import proofs.«113429_j25366076850538_2_alg».proof.Proof.FrameKernelIdeal
import proofs.«113429_j25366076850538_2_alg».proof.Proof.Region0
import proofs.«113429_j25366076850538_2_alg».proof.Proof.Region1
import proofs.«113429_j25366076850538_2_alg».proof.Proof.HostSide
import proofs.«113429_j25366076850538_2_alg».proof.Proof.Compose

set_option maxRecDepth 16384

noncomputable section

open Idealize.ShloMosaic Idealize.ShloMosaic.TcCoe Idealize.ShloMosaic.ValueIdx Idealize.SL.Sem

namespace Cert.KernelIdeal.KernelValue

open Cert.KernelIdeal Cert.KernelIdeal.Gen Cert.KernelIdeal.GenP Cert.Attn

variable (m : (ℓ : Loc nD τ sig) → Buf (Elt Ideal) ℓ) (ρ : Dev nD → PrngReg)

/-- The keys the projection region leaves, as the attention region finds them. -/
theorem keys_eq (c : Dev nD) :
    (V2 m ρ c main_v10_0 : S16384x1024.Idx → EReal)
      = projected (V1 m ρ c main_v0) (V1 m ρ c main_v2) (V1 m ρ c main_v7) :=
  (W2_arr m ρ c 7).trans (Cert.KernelIdeal.Region0.final7 (V1 m ρ) c)

/-- The queries, every entry multiplied by 1/32. -/
theorem queries_eq (c : Dev nD) :
    (V2 m ρ c main_v10_1 : S16384x1024.Idx → EReal)
      = projectedScaled (V1 m ρ c main_v0) (V1 m ρ c main_v4) (V1 m ρ c main_v8) :=
  (W2_arr m ρ c 8).trans (Cert.KernelIdeal.Region0.final8 (V1 m ρ) c)

/-- The values. -/
theorem values_eq (c : Dev nD) :
    (V2 m ρ c main_v10_2 : S16384x1024.Idx → EReal)
      = projected (V1 m ρ c main_v0) (V1 m ρ c main_v6) (V1 m ρ c main_v9) :=
  (W2_arr m ρ c 9).trans (Cert.KernelIdeal.Region0.final9 (V1 m ρ) c)

/-- The attention region's output array. -/
theorem out_eq (c : Dev nD) :
    (W3 m ρ c (Proc.devRef .tc main_v11) : S16384x1024.Idx → EReal)
      = attended (V2 m ρ c main_v10_0) (V2 m ρ c main_v10_1) (V2 m ρ c main_v10_2) :=
  (W3_arr m ρ c 3).trans (Cert.KernelIdeal.Region1.final (V2 m ρ) c)

/-- THE RESULT: attention with pre-scaled queries of the seven argument arrays. -/
theorem result_eq (c : Dev nD) :
    (W4 m ρ c (Proc.devRef .tc main_v12) : S8x2048x1024.Idx → EReal)
      = attnScaled (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [Cert.KernelIdeal.HostSide.W4_v12 m ρ c, out_eq m ρ c, keys_eq m ρ c, queries_eq m ρ c, values_eq m ρ c,
    Cert.KernelIdeal.HostSide.V1_v0 m ρ c, Cert.KernelIdeal.HostSide.V1_v2 m ρ c, Cert.KernelIdeal.HostSide.V1_v4 m ρ c,
    Cert.KernelIdeal.HostSide.V1_v6 m ρ c, Cert.KernelIdeal.HostSide.V1_v7 m ρ c, Cert.KernelIdeal.HostSide.V1_v8 m ρ c,
    Cert.KernelIdeal.HostSide.V1_v9 m ρ c]
  exact Cert.Attn.Compose.composed _ _ _ _ _ _ _ _ _ _ _ _

end Cert.KernelIdeal.KernelValue

end
-- ==== Proof.FiniteInputs.lean ====
/-
  From the precondition "every input is finite" to "every input entry is a real number".

  The precondition is the conjunction, over the seven argument arrays, of `all (|x| < +∞)`:
  an elementwise comparison of `max x (-x)` against the extended real the pattern
  `0x7F800000` denotes (which is `⊤`), reduced by `and` over every axis.  A reduction by
  `and` that is 1 met only 1s, so every entry `x i` satisfies `max (x i) (-(x i)) < ⊤`;
  on the extended reals that excludes `⊥` (whose negation is `⊤`) and `⊤`, leaving a real.
-/
import proofs.«113429_j25366076850538_2_alg».proof.Pre_finite_inputs
import Idealize.ShloMosaic.Lib.ReduceAll
import Idealize.ShloMosaic.PureOps.Ideal

namespace Cert.FiniteInputs

open Idealize.ShloMosaic

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` denotes `+∞`. -/
theorem ofBits_inf : (FloatOps.ofBits (F := Ideal) .f32 0x7F800000#32 : Ideal .f32) = (⊤ : EReal) := by
  show Ideal.ofBits .f32 0x7F800000#32 = ⊤
  simp [Ideal.ofBits, Ideal.ieee]

/-- One entry: if the comparison `|x| < broadcast (+∞)` is 1 at `i`, then `x i` is a real. -/
theorem real_of_cmp {S0 S : Shape} (dims : Fin S0.rank → Fin S.rank) (hb : S0.BroadcastsInDim S dims)
    (x : FVec Ideal S .f32) (i : S.Idx)
    (h : cmpf .olt (Host.absf x) (broadcastInDim S dims hb (constant (F := Ideal) S0 .f32 0x7F800000#32)) i = 1#1) :
    ∃ r : ℝ, x i = (r : EReal) := by
  refine real_of_abs_lt_top (x i) ?_
  have h' : BitVec.ofBool (decide (max (x i) (-(x i)) <
      (FloatOps.ofBits (F := Ideal) .f32 0x7F800000#32 : EReal))) = 1#1 := h
  rw [ofBits_inf] at h'
  by_contra hn
  rw [decide_eq_false hn] at h'
  exact absurd h' (by decide)

open Cert.Pre_finite_inputs in
/-- The scalar shape has exactly one index. -/
instance subsingleton_scalar_idx : Subsingleton S_.Idx := ⟨fun a b => funext fun d => d.elim0⟩

open Cert.Pre_finite_inputs in
/-- Under the precondition, every entry of each of the seven argument arrays is a real number
    (conjuncts in the order of the arguments, 0 to 6). -/
theorem real_of_pre [Facts]
    (x0 : FVec Ideal S8x2048x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32)
    (h : fn (F := Ideal) x0 x1 x2 x3 x4 x5 x6 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) ∧
    (∀ i, ∃ r : ℝ, x4 i = (r : EReal)) ∧ (∀ i, ∃ r : ℝ, x5 i = (r : EReal)) ∧
    (∀ i, ∃ r : ℝ, x6 i = (r : EReal)) := by
  have j : S_.Idx := fun d => d.elim0
  have h0 := congrFun h j
  dsimp only [fn, fn_part1, andi] at h0
  rw [IntOp.andi_eq_one, IntOp.andi_eq_one, IntOp.andi_eq_one, IntOp.andi_eq_one, IntOp.andi_eq_one,
    IntOp.andi_eq_one] at h0
  obtain ⟨⟨⟨⟨⟨⟨e0, e1⟩, e2⟩, e3⟩, e4⟩, e5⟩, e6⟩ := h0
  exact ⟨fun i => real_of_cmp _ _ x0 i (Host.reduce_andi_all _ _ _ _ j e0 i),
    fun i => real_of_cmp _ _ x1 i (Host.reduce_andi_all _ _ _ _ j e1 i),
    fun i => real_of_cmp _ _ x2 i (Host.reduce_andi_all _ _ _ _ j e2 i),
    fun i => real_of_cmp _ _ x3 i (Host.reduce_andi_all _ _ _ _ j e3 i),
    fun i => real_of_cmp _ _ x4 i (Host.reduce_andi_all _ _ _ _ j e4 i),
    fun i => real_of_cmp _ _ x5 i (Host.reduce_andi_all _ _ _ _ j e5 i),
    fun i => real_of_cmp _ _ x6 i (Host.reduce_andi_all _ _ _ _ j e6 i)⟩

end Cert.FiniteInputs
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.ScaleLaw.lean ====
/-
  Scaling the queries by 1/32 before the contraction, or dividing the contraction by √1024: the same logits,
  hence the same attention.

  On the extended reals `x / y` and `x * (1/y)` agree for a nonzero real `y`, and √1024 = 32; but a product does
  not distribute over a sum at the infinities, so `∑ d, K j d * (Q l d * (1/32))` is `(∑ d, K j d * Q l d) * (1/32)`
  only because every `K j d` and `Q l d` is a real number: then both sides are the image of one real sum.  The key and
  query rows are dense layers of real inputs, weights and biases — finite sums of products of reals plus a real — and
  so are real; the value rows need no hypothesis, they enter both sides alike.
-/
import proofs.«113429_j25366076850538_2_alg».proof.Proof.Spec
import proofs.«113429_j25366076850538_2_alg».proof.Proof.LibRealValued
import Idealize.ShloMosaic.PureOps.Ideal

open scoped BigOperators

namespace Cert.Attn.ScaleLaw

open Idealize.ShloMosaic Idealize.ShloMosaic.ValueIdx Cert.RealValued

/-- The f32 pattern `0x3D000000` denotes the real 1/32. -/
theorem ofBits_inv32 : Ideal.ofBits .f32 0x3D000000#32 = ((1 / 32 : ℝ) : EReal) := by
  simp [Ideal.ofBits, Ideal.ieee, -EReal.coe_mul]; norm_num

/-- The f32 pattern `0x44800000` denotes the real 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  have h : Real.sqrt 1024 = 32 := by
    rw [show (1024 : ℝ) = 32 ^ 2 by norm_num]
    exact Real.sqrt_sq (by norm_num)
  rw [h]

/-- The image of a finite real sum is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real rows the pre-scaled logit is the divided one. -/
theorem logitsScaled_eq_logitsDiv (K Q : Fin 2048 → Fin 1024 → EReal) (j l : Fin 2048)
    (hK : ∀ d, ∃ r : ℝ, K j d = (r : EReal)) (hQ : ∀ d, ∃ r : ℝ, Q l d = (r : EReal)) :
    logitsScaled K Q j l = logitsDiv K Q j l := by
  choose k hk using hK
  choose q hq using hQ
  simp only [logitsScaled, logitsDiv]
  rw [ofBits_inv32, ofBits_1024, sqrt_1024, Ideal.div_coe (by norm_num : (32 : ℝ) ≠ 0)]
  simp only [hk, hq, ← EReal.coe_mul, ← coe_sum]
  refine congrArg _ ?_
  rw [Finset.sum_mul]
  exact Finset.sum_congr rfl fun d _ => by ring

/-- A dense layer of real inputs, weights and biases is real. -/
theorem dense_real (x : SX.Idx → EReal) (W : SW.Idx → EReal) (β : SB.Idx → EReal)
    (hx : ∀ i, ∃ r : ℝ, x i = (r : EReal)) (hW : ∀ i, ∃ r : ℝ, W i = (r : EReal)) (hβ : ∀ i, ∃ r : ℝ, β i = (r : EReal))
    (b : Fin 8) (s : Fin 2048) (o : Fin 1024) : ∃ r : ℝ, dense x W β b s o = (r : EReal) :=
  IsReal.add (IsReal.sum _ _ fun i _ => IsReal.mul (hx _) (hW _)) (hβ _)

/-- Attention with pre-scaled queries is attention with divided logits, on real inputs, key and query weights
    and biases. -/
theorem attnScaled_eq_attnDiv (x : SX.Idx → EReal) (Wk : SW.Idx → EReal) (bk : SB.Idx → EReal) (Wq : SW.Idx → EReal)
    (bq : SB.Idx → EReal) (Wv : SW.Idx → EReal) (bv : SB.Idx → EReal)
    (hx : ∀ i, ∃ r : ℝ, x i = (r : EReal)) (hWk : ∀ i, ∃ r : ℝ, Wk i = (r : EReal))
    (hbk : ∀ i, ∃ r : ℝ, bk i = (r : EReal)) (hWq : ∀ i, ∃ r : ℝ, Wq i = (r : EReal))
    (hbq : ∀ i, ∃ r : ℝ, bq i = (r : EReal)) :
    attnScaled x Wk bk Wq bq Wv bv = attnDiv x Wk bk Wq bq Wv bv := by
  funext i
  have e : logitsScaled (dense x Wk bk (i 0)) (dense x Wq bq (i 0)) (i 1)
      = logitsDiv (dense x Wk bk (i 0)) (dense x Wq bq (i 0)) (i 1) :=
    funext fun l => logitsScaled_eq_logitsDiv _ _ _ _ (fun d => dense_real x Wk bk hx hWk hbk _ _ d)
      (fun d => dense_real x Wq bq hx hWq hbq _ _ d)
  exact congrArg (fun r => mix r (dense x Wv bv (i 0)) (i 1) (i 2)) e

end Cert.Attn.ScaleLaw
-- ==== Proof.lean ====
/-
  The proof of `Cert.Claim` for the signed-softmax attention kernel against its reference.

  Both programs compute, for every batch b, key row j and feature d, the combination of the value rows by the signed
  softmax weights of row j's logits, where keys, queries and values are three dense layers of the input.  The reference
  divides each logit (the contraction of a key row with a query row) by √1024; the kernel multiplies every query entry
  by 1/32 before the contraction.  Since √1024 = 32 and, for real entries, a common factor passes through a finite sum,
  the two logits agree whenever the inputs are finite (`Cert.Attn.ScaleLaw`); everything after the logits is one function
  of them (`Cert.Attn.mix`).

  The kernel side: the run of the two regions and the host operations around them, with the result array named
  (`KernelRun`), read as `Cert.Attn.attnScaled` of the arguments (`KernelValue`, over `Region0`, `Region1`, `HostSide`
  and `Compose`).  The reference side: its run, read one operation at a time as `Cert.Attn.attnDiv` (`RefValue`).  The
  precondition gives real entries (`FiniteInputs`).  The frames are the generated ones; the idealization rewrote no
  operation, so `preserves` asks nothing.
-/
import proofs.«113429_j25366076850538_2_alg».proof.Defs
import proofs.«113429_j25366076850538_2_alg».proof.Proof.Gen.Kernel
import proofs.«113429_j25366076850538_2_alg».proof.Proof.Gen.Kernel.Skeleton
import proofs.«113429_j25366076850538_2_alg».proof.Proof.Gen.Kernel.Launch
import proofs.«113429_j25366076850538_2_alg».proof.Proof.Gen.Kernel.Points
import proofs.«113429_j25366076850538_2_alg».proof.Proof.FrameKernel
import proofs.«113429_j25366076850538_2_alg».proof.Proof.Gen.KernelIdeal
import proofs.«113429_j25366076850538_2_alg».proof.Proof.Gen.KernelIdeal.Skeleton
import proofs.«113429_j25366076850538_2_alg».proof.Proof.Gen.KernelIdeal.Launch
import proofs.«113429_j25366076850538_2_alg».proof.Proof.Gen.KernelIdeal.Points
import proofs.«113429_j25366076850538_2_alg».proof.Proof.FrameKernelIdeal
import proofs.«113429_j25366076850538_2_alg».proof.Proof.Gen.ReferenceIdeal
import proofs.«113429_j25366076850538_2_alg».proof.Proof.Gen.ReferenceIdeal.Run
import proofs.«113429_j25366076850538_2_alg».proof.Proof.Gen.ReferenceIdeal.Read
import proofs.«113429_j25366076850538_2_alg».proof.Proof.Gen.Pre_finite_inputs
import proofs.«113429_j25366076850538_2_alg».proof.Proof.RefValue
import proofs.«113429_j25366076850538_2_alg».proof.Proof.KernelRun
import proofs.«113429_j25366076850538_2_alg».proof.Proof.KernelValue
import proofs.«113429_j25366076850538_2_alg».proof.Proof.FiniteInputs
import proofs.«113429_j25366076850538_2_alg».proof.Proof.ScaleLaw
import Idealize.ShloMosaic.Adequacy
import Idealize.ShloMosaic.Init

noncomputable section

namespace Cert.Proof

open Idealize.ShloMosaic Idealize.SL.Sem

/-- The word-level kernel runs and leaves its arguments as launched. -/
theorem frame_k [Cert.Kernel.Facts] [Cert.Pre_finite_inputs.Facts] : Cert.frame_Kernel :=
  fun m ρ _ => Cert.Kernel.GenP.frame m ρ

/-- So does the kernel read over the extended reals. -/
theorem frame_ki [Cert.KernelIdeal.Facts] [Cert.Pre_finite_inputs.Facts] : Cert.frame_KernelIdeal :=
  fun m ρ _ => Cert.KernelIdeal.GenP.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with attention with pre-scaled queries of the arguments: the kernel by its run read back, the
    reference because, on finite inputs, dividing a logit by √1024 is scaling the queries by 1/32. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.attnScaled (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6)), ?_, ?_⟩
  · exact (θ_run Cert.KernelIdeal.defs _ _).mono
      (fun _ h c => ⟨(h c).1.trans (Cert.KernelIdeal.KernelValue.result_eq m ρ c), (h c).2⟩)
      (Cert.KernelIdeal.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    obtain ⟨h0, h1, h2, h3, h4, -, -⟩ := Cert.FiniteInputs.real_of_pre _ _ _ _ _ _ _ (hpre c)
    rw [Cert.ReferenceIdeal.Read.val_main_v36_eq, Cert.ReferenceIdeal.RefValue.ref_eq, a0, a1, a2, a3, a4, a5, a6]
    exact (Cert.Attn.ScaleLaw.attnScaled_eq_attnDiv _ _ _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
